-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S1024x4 : Shape := ⟨2, ![1024, 4]⟩
abbrev S16384x2048 : Shape := ⟨2, ![16384, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S2048x2048 .f32) (main_arg1 : IVec S1024x4 32) (main_arg2 : FVec F S16384x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S16384x2048 .f32 := Host.absf main_arg2
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S2048x2048 : Shape := ⟨2, ![2048, 2048]⟩
abbrev S1024x4 : Shape := ⟨2, ![1024, 4]⟩
abbrev S16384x2048 : Shape := ⟨2, ![16384, 2048]⟩
abbrev S_ : Shape := ⟨0, ![]⟩
abbrev S1024x4x1 : Shape := ⟨3, ![1024, 4, 1]⟩
abbrev S1 : Shape := ⟨1, ![1]⟩
abbrev S1x1x1 : Shape := ⟨3, ![1, 1, 1]⟩
abbrev S2048x1024x4 : Shape := ⟨3, ![2048, 1024, 4]⟩
abbrev S4 : Shape := ⟨1, ![4]⟩
abbrev S1x1x4 : Shape := ⟨3, ![1, 1, 4]⟩
abbrev S2048x1024 : Shape := ⟨2, ![2048, 1024]⟩
abbrev S2048x1024x1 : Shape := ⟨3, ![2048, 1024, 1]⟩
abbrev S1x1x16 : Shape := ⟨3, ![1, 1, 16]⟩
abbrev S2048x1024x16 : Shape := ⟨3, ![2048, 1024, 16]⟩
abbrev S2048x16384 : Shape := ⟨2, ![2048, 16384]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 47
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1024x4, .i32⟩
  | .hbm, ⟨2, _⟩ => ⟨S16384x2048, .f32⟩
  | .hbm, ⟨3, _⟩ => ⟨S_, .i32⟩
  | .hbm, ⟨4, _⟩ => ⟨S1024x4, .i32⟩
  | .hbm, ⟨5, _⟩ => ⟨S1024x4, .i1⟩
  | .hbm, ⟨6, _⟩ => ⟨S_, .i32⟩
  | .hbm, ⟨7, _⟩ => ⟨S1024x4, .i32⟩
  | .hbm, ⟨8, _⟩ => ⟨S1024x4, .i32⟩
  | .hbm, ⟨9, _⟩ => ⟨S1024x4, .i32⟩
  | .hbm, ⟨10, _⟩ => ⟨S1024x4x1, .i32⟩
  | .hbm, ⟨11, _⟩ => ⟨S1, .i32⟩
  | .hbm, ⟨12, _⟩ => ⟨S_, .i32⟩
  | .hbm, ⟨13, _⟩ => ⟨S1024x4x1, .i32⟩
  | .hbm, ⟨14, _⟩ => ⟨S1024x4x1, .i1⟩
  | .hbm, ⟨15, _⟩ => ⟨S1x1x1, .i32⟩
  | .hbm, ⟨16, _⟩ => ⟨S1024x4x1, .i32⟩
  | .hbm, ⟨17, _⟩ => ⟨S1024x4x1, .i1⟩
  | .hbm, ⟨18, _⟩ => ⟨S1024x4x1, .i1⟩
  | .hbm, ⟨19, _⟩ => ⟨S_, .i1⟩
  | .hbm, ⟨20, _⟩ => ⟨S1024x4, .i1⟩
  | .hbm, ⟨21, _⟩ => ⟨S2048x1024x4, .f32⟩
  | .hbm, ⟨22, _⟩ => ⟨S2048x1024x4, .i1⟩
  | .hbm, ⟨23, _⟩ => ⟨S_, .f32⟩
  | .hbm, ⟨24, _⟩ => ⟨S2048x1024x4, .f32⟩
  | .hbm, ⟨25, _⟩ => ⟨S2048x1024x4, .f32⟩
  | .hbm, ⟨26, _⟩ => ⟨S_, .f32⟩
  | .hbm, ⟨27, _⟩ => ⟨S2048x1024x4, .f32⟩
  | .hbm, ⟨28, _⟩ => ⟨S2048x1024x4, .i1⟩
  | .hbm, ⟨29, _⟩ => ⟨S2048x1024x4, .i32⟩
  | .hbm, ⟨30, _⟩ => ⟨S4, .i32⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S1x1x4, .i32⟩
  | .hbm, ⟨35, _⟩ => ⟨S2048x1024x4, .i32⟩
  | .hbm, ⟨36, _⟩ => ⟨S2048x1024x4, .i32⟩
  | .hbm, ⟨37, _⟩ => ⟨S_, .i32⟩
  | .hbm, ⟨38, _⟩ => ⟨S2048x1024, .i32⟩
  | .hbm, ⟨39, _⟩ => ⟨S2048x1024x1, .i32⟩
  | .hbm, ⟨40, _⟩ => ⟨S1x1x16, .i32⟩
  | .hbm, ⟨41, _⟩ => ⟨S2048x1024x16, .i32⟩
  | .hbm, ⟨42, _⟩ => ⟨S2048x1024x16, .i32⟩
  | .hbm, ⟨43, _⟩ => ⟨S2048x1024x16, .i1⟩
  | .hbm, ⟨44, _⟩ => ⟨S2048x1024x16, .bf16⟩
  | .hbm, ⟨45, _⟩ => ⟨S2048x16384, .bf16⟩
  | .hbm, ⟨46, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .f32⟩
  | .local _ .vmem, ⟨3, _⟩ => ⟨S512x2048, .f32⟩
  | .local _ .vmem, ⟨4, _⟩ => ⟨S1024x2048, .f32⟩
  | .local _ .vmem, ⟨5, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1_S1x1x1_2 : S1.BroadcastsInDim S1x1x1 (![2] : Fin 1 → Fin S1x1x1.rank)
  bcast_S1x1x1_S1024x4x1_0_1_2 : S1x1x1.BroadcastsInDim S1024x4x1 (![0, 1, 2] : Fin 3 → Fin S1024x4x1.rank)
  reducesTo_S1024x4x1_S1024x4_d2 : S1024x4x1.ReducesTo [2] S1024x4
  h_S_ : 0 < S_.numel
  bcast_S1024x4_S2048x1024x4_1_2 : S1024x4.BroadcastsInDim S2048x1024x4 (![1, 2] : Fin 2 → Fin S2048x1024x4.rank)
  bcast_S_S2048x1024x4 : S_.BroadcastsInDim S2048x1024x4 (![] : Fin 0 → Fin S2048x1024x4.rank)
  natLt_1_32 : 1 < 32
  bcast_S_S4 : S_.BroadcastsInDim S4 (![] : Fin 0 → Fin S4.rank)
  bcast_S4_S1x1x4_2 : S4.BroadcastsInDim S1x1x4 (![2] : Fin 1 → Fin S1x1x4.rank)
  bcast_S1x1x4_S2048x1024x4_0_1_2 : S1x1x4.BroadcastsInDim S2048x1024x4 (![0, 1, 2] : Fin 3 → Fin S2048x1024x4.rank)
  reducesTo_S2048x1024x4_S2048x1024_d2 : S2048x1024x4.ReducesTo [2] S2048x1024
  bcast_S2048x1024_S2048x1024x1_0_1 : S2048x1024.BroadcastsInDim S2048x1024x1 (![0, 1] : Fin 2 → Fin S2048x1024x1.rank)
  bcast_S2048x1024x1_S2048x1024x16_0_1_2 : S2048x1024x1.BroadcastsInDim S2048x1024x16 (![0, 1, 2] : Fin 3 → Fin S2048x1024x16.rank)
  bcast_S1x1x16_S2048x1024x16_0_1_2 : S1x1x16.BroadcastsInDim S2048x1024x16 (![0, 1, 2] : Fin 3 → Fin S2048x1024x16.rank)
  shapeCasts_S2048x1024x16_S2048x16384 : S2048x1024x16.ShapeCasts S2048x16384
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  shapeCasts_S1024x2048_S1024x2048 : S1024x2048.ShapeCasts S1024x2048
  gather_S2048x2048_S1024x4x1_S2048x1024x4_0_1_n_n_1_2_20481_wf : GatherDims.WF S2048x2048 S1024x4x1 S2048x1024x4 [0] [1] [] [1] [] 2 ![2048, 1]
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x16384.size a
  hwx0_0 : ∀ i : grid0.Coords, EltTy.bits .bf16 = 32 ∨ (Rect.block (s := S2048x16384) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S2048x2048.size a
  hwx0_2 : ∀ i : grid0.Coords, EltTy.bits .f32 = 32 ∨ (Rect.block (s := S2048x2048) S1024x2048.size (cc0_transform_2 i) (hinb0_2 i)).WholeWords (EltTy.packing .f32)

variable [Facts₀]

def gather_S2048x2048_S1024x4x1_S2048x1024x4_0_1_n_n_1_2_20481 : GatherDims S2048x2048 S1024x4x1 S2048x1024x4 where
  offsetDims := [0]
  collapsedSliceDims := [1]
  operandBatchingDims := []
  startIndicesBatchingDims := []
  startIndexMap := [1]
  indexVectorDim := 2
  sliceSizes := ![2048, 1]
  wf := gather_S2048x2048_S1024x4x1_S2048x1024x4_0_1_n_n_1_2_20481_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v12) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S1024x4 : Shape := ⟨2, ![1024, 4]⟩
abbrev S16384x2048 : Shape := ⟨2, ![16384, 2048]⟩
abbrev S_ : Shape := ⟨0, ![]⟩
abbrev S1024x4x1 : Shape := ⟨3, ![1024, 4, 1]⟩
abbrev S1 : Shape := ⟨1, ![1]⟩
abbrev S1x1x1 : Shape := ⟨3, ![1, 1, 1]⟩
abbrev S2048x1024x4 : Shape := ⟨3, ![2048, 1024, 4]⟩
abbrev S4 : Shape := ⟨1, ![4]⟩
abbrev S1x1x4 : Shape := ⟨3, ![1, 1, 4]⟩
abbrev S2048x1024 : Shape := ⟨2, ![2048, 1024]⟩
abbrev S1024 : Shape := ⟨1, ![1024]⟩
abbrev S1x1024 : Shape := ⟨2, ![1, 1024]⟩
abbrev S2048x16384 : Shape := ⟨2, ![2048, 16384]⟩
abbrev S2048 : Shape := ⟨1, ![2048]⟩
abbrev S2048x1 : Shape := ⟨2, ![2048, 1]⟩
abbrev S2048x1024x1 : Shape := ⟨3, ![2048, 1024, 1]⟩
abbrev S2048x1024x2 : Shape := ⟨3, ![2048, 1024, 2]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x4, .i32⟩
  | .hbm, ⟨2, _⟩ => ⟨S16384x2048, .f32⟩
  | .hbm, ⟨3, _⟩ => ⟨S_, .i32⟩
  | .hbm, ⟨4, _⟩ => ⟨S1024x4, .i32⟩
  | .hbm, ⟨5, _⟩ => ⟨S1024x4, .i1⟩
  | .hbm, ⟨6, _⟩ => ⟨S_, .i32⟩
  | .hbm, ⟨7, _⟩ => ⟨S1024x4, .i32⟩
  | .hbm, ⟨8, _⟩ => ⟨S1024x4, .i32⟩
  | .hbm, ⟨9, _⟩ => ⟨S1024x4, .i32⟩
  | .hbm, ⟨10, _⟩ => ⟨S1024x4x1, .i32⟩
  | .hbm, ⟨11, _⟩ => ⟨S1, .i32⟩
  | .hbm, ⟨12, _⟩ => ⟨S_, .i32⟩
  | .hbm, ⟨13, _⟩ => ⟨S1024x4x1, .i32⟩
  | .hbm, ⟨14, _⟩ => ⟨S1024x4x1, .i1⟩
  | .hbm, ⟨15, _⟩ => ⟨S1x1x1, .i32⟩
  | .hbm, ⟨16, _⟩ => ⟨S1024x4x1, .i32⟩
  | .hbm, ⟨17, _⟩ => ⟨S1024x4x1, .i1⟩
  | .hbm, ⟨18, _⟩ => ⟨S1024x4x1, .i1⟩
  | .hbm, ⟨19, _⟩ => ⟨S_, .i1⟩
  | .hbm, ⟨20, _⟩ => ⟨S1024x4, .i1⟩
  | .hbm, ⟨21, _⟩ => ⟨S2048x1024x4, .f32⟩
  | .hbm, ⟨22, _⟩ => ⟨S2048x1024x4, .i1⟩
  | .hbm, ⟨23, _⟩ => ⟨S_, .f32⟩
  | .hbm, ⟨24, _⟩ => ⟨S2048x1024x4, .f32⟩
  | .hbm, ⟨25, _⟩ => ⟨S2048x1024x4, .f32⟩
  | .hbm, ⟨26, _⟩ => ⟨S_, .f32⟩
  | .hbm, ⟨27, _⟩ => ⟨S2048x1024x4, .f32⟩
  | .hbm, ⟨28, _⟩ => ⟨S2048x1024x4, .i1⟩
  | .hbm, ⟨29, _⟩ => ⟨S2048x1024x4, .i32⟩
  | .hbm, ⟨30, _⟩ => ⟨S4, .i32⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S1x1x4, .i32⟩
  | .hbm, ⟨35, _⟩ => ⟨S2048x1024x4, .i32⟩
  | .hbm, ⟨36, _⟩ => ⟨S2048x1024x4, .i32⟩
  | .hbm, ⟨37, _⟩ => ⟨S_, .i32⟩
  | .hbm, ⟨38, _⟩ => ⟨S2048x1024, .i32⟩
  | .hbm, ⟨39, _⟩ => ⟨S1024, .i32⟩
  | .hbm, ⟨40, _⟩ => ⟨S1x1024, .i32⟩
  | .hbm, ⟨41, _⟩ => ⟨S_, .i32⟩
  | .hbm, ⟨42, _⟩ => ⟨S1x1024, .i32⟩
  | .hbm, ⟨43, _⟩ => ⟨S1x1024, .i32⟩
  | .hbm, ⟨44, _⟩ => ⟨S2048x1024, .i32⟩
  | .hbm, ⟨45, _⟩ => ⟨S2048x1024, .i32⟩
  | .hbm, ⟨46, _⟩ => ⟨S_, .f32⟩
  | .hbm, ⟨47, _⟩ => ⟨S2048x16384, .f32⟩
  | .hbm, ⟨48, _⟩ => ⟨S2048, .i32⟩
  | .hbm, ⟨49, _⟩ => ⟨S2048x1, .i32⟩
  | .hbm, ⟨50, _⟩ => ⟨S_, .i32⟩
  | .hbm, ⟨51, _⟩ => ⟨S2048x1, .i32⟩
  | .hbm, ⟨52, _⟩ => ⟨S2048x1, .i1⟩
  | .hbm, ⟨53, _⟩ => ⟨S_, .i32⟩
  | .hbm, ⟨54, _⟩ => ⟨S2048x1, .i32⟩
  | .hbm, ⟨55, _⟩ => ⟨S2048x1, .i32⟩
  | .hbm, ⟨56, _⟩ => ⟨S2048x1, .i32⟩
  | .hbm, ⟨57, _⟩ => ⟨S_, .i32⟩
  | .hbm, ⟨58, _⟩ => ⟨S2048x1024, .i32⟩
  | .hbm, ⟨59, _⟩ => ⟨S2048x1024, .i1⟩
  | .hbm, ⟨60, _⟩ => ⟨S_, .i32⟩
  | .hbm, ⟨61, _⟩ => ⟨S2048x1024, .i32⟩
  | .hbm, ⟨62, _⟩ => ⟨S2048x1024, .i32⟩
  | .hbm, ⟨63, _⟩ => ⟨S2048x1024, .i32⟩
  | .hbm, ⟨64, _⟩ => ⟨S2048x1024, .i32⟩
  | .hbm, ⟨65, _⟩ => ⟨S2048x1024x1, .i32⟩
  | .hbm, ⟨66, _⟩ => ⟨S2048x1024x1, .i32⟩
  | .hbm, ⟨67, _⟩ => ⟨S2048x1024x2, .i32⟩
  | .hbm, ⟨68, _⟩ => ⟨S_, .f32⟩
  | .hbm, ⟨69, _⟩ => ⟨S2048x1024, .f32⟩
  | .hbm, ⟨70, _⟩ => ⟨S2048x16384, .f32⟩
  | .hbm, ⟨71, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_c_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]

class Facts₀ : Prop where
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1_S1x1x1_2 : S1.BroadcastsInDim S1x1x1 (![2] : Fin 1 → Fin S1x1x1.rank)
  bcast_S1x1x1_S1024x4x1_0_1_2 : S1x1x1.BroadcastsInDim S1024x4x1 (![0, 1, 2] : Fin 3 → Fin S1024x4x1.rank)
  reducesTo_S1024x4x1_S1024x4_d2 : S1024x4x1.ReducesTo [2] S1024x4
  h_S_ : 0 < S_.numel
  bcast_S1024x4_S2048x1024x4_1_2 : S1024x4.BroadcastsInDim S2048x1024x4 (![1, 2] : Fin 2 → Fin S2048x1024x4.rank)
  bcast_S_S2048x1024x4 : S_.BroadcastsInDim S2048x1024x4 (![] : Fin 0 → Fin S2048x1024x4.rank)
  natLt_1_32 : 1 < 32
  bcast_S_S4 : S_.BroadcastsInDim S4 (![] : Fin 0 → Fin S4.rank)
  bcast_S4_S1x1x4_2 : S4.BroadcastsInDim S1x1x4 (![2] : Fin 1 → Fin S1x1x4.rank)
  bcast_S1x1x4_S2048x1024x4_0_1_2 : S1x1x4.BroadcastsInDim S2048x1024x4 (![0, 1, 2] : Fin 3 → Fin S2048x1024x4.rank)
  reducesTo_S2048x1024x4_S2048x1024_d2 : S2048x1024x4.ReducesTo [2] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S2048x1024_0_1 : S1x1024.BroadcastsInDim S2048x1024 (![0, 1] : Fin 2 → Fin S2048x1024.rank)
  bcast_S_S2048x16384 : S_.BroadcastsInDim S2048x16384 (![] : Fin 0 → Fin S2048x16384.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x1024 : S_.BroadcastsInDim S2048x1024 (![] : Fin 0 → Fin S2048x1024.rank)
  bcast_S2048x1_S2048x1024_0_1 : S2048x1.BroadcastsInDim S2048x1024 (![0, 1] : Fin 2 → Fin S2048x1024.rank)
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  gather_S2048x2048_S1024x4x1_S2048x1024x4_0_1_n_n_1_2_20481_wf : GatherDims.WF S2048x2048 S1024x4x1 S2048x1024x4 [0] [1] [] [1] [] 2 ![2048, 1]
  scatter_S2048x16384_S2048x1024x2_S2048x1024_n_01_01_2_wf : ScatterDims.WF S2048x16384 S2048x1024x2 S2048x1024 [] [0, 1] [0, 1] 2
  dot_S2048x16384_S16384x2048_S2048x2048_1_0_0_1_n_n_wf : DotDims.WF S2048x16384 S16384x2048 S2048x2048 [1] [0] [0] [1] [] []

variable [Facts₀]

def gather_S2048x2048_S1024x4x1_S2048x1024x4_0_1_n_n_1_2_20481 : GatherDims S2048x2048 S1024x4x1 S2048x1024x4 where
  offsetDims := [0]
  collapsedSliceDims := [1]
  operandBatchingDims := []
  startIndicesBatchingDims := []
  startIndexMap := [1]
  indexVectorDim := 2
  sliceSizes := ![2048, 1]
  wf := gather_S2048x2048_S1024x4x1_S2048x1024x4_0_1_n_n_1_2_20481_wf
def scatter_S2048x16384_S2048x1024x2_S2048x1024_n_01_01_2 : ScatterDims S2048x16384 S2048x1024x2 S2048x1024 where
  updateWindowDims := []
  insertedWindowDims := [0, 1]
  scatterDimsToOperandDims := [0, 1]
  indexVectorDim := 2
  wf := scatter_S2048x16384_S2048x1024x2_S2048x1024_n_01_01_2_wf
def dot_S2048x16384_S16384x2048_S2048x2048_1_0_0_1_n_n : DotDims S2048x16384 S16384x2048 S2048x2048 where
  lhsContracting := [1]
  rhsContracting := [0]
  lhsNonContracting := [0]
  rhsNonContracting := [1]
  lhsBatch := []
  rhsBatch := []
  wf := dot_S2048x16384_S16384x2048_S2048x2048_1_0_0_1_n_n_wf

class Facts : Prop extends Facts₀ where

variable [Facts]
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibTileSum.lean ====
/-
  Two small facts about sums and columns, independent of any program.

  A sum over the first m·n naturals can be taken tile by tile: n consecutive tiles of m positions each, tile s holding
  the positions m·s, m·s + 1, …, m·s + (m − 1). Only commutativity and associativity of the addition are used, so the
  fact holds in every commutative additive monoid — the extended reals included, infinities and all.

  A column of shape [a, 1] cast to the vector shape [a] keeps the row-major order, so the vector's entry at i is the
  column's entry at (i, 0).
-/
import Idealize.ShloMosaic.Lib.ValueIdx
import Idealize.ShloMosaic.Lib.Pipeline.Value

noncomputable section

namespace Cert.Lib

open Idealize.ShloMosaic Idealize.ShloMosaic.ValueIdx

/-- The first m·n naturals, summed tile by tile. -/
theorem sum_range_tiles {β : Type*} [AddCommMonoid β] (g : ℕ → β) (m : ℕ) : ∀ n : ℕ,
    ∑ s ∈ Finset.range n, ∑ q ∈ Finset.range m, g (m * s + q) = ∑ k ∈ Finset.range (m * n), g k
  | 0 => by simp
  | n + 1 => by
    rw [Finset.sum_range_succ, sum_range_tiles g m n, Nat.mul_succ, Finset.sum_range_add]

/-- The same with each tile's positions and the whole range as finite index types. -/
theorem sum_fin_tiles {β : Type*} [AddCommMonoid β] (g : ℕ → β) (m n : ℕ) {N : ℕ} (hN : m * n = N) :
    ∑ s ∈ Finset.range n, ∑ q : Fin m, g (m * s + q.val) = ∑ k : Fin N, g k.val := by
  subst hN
  rw [← Finset.sum_range (fun k => g k), ← sum_range_tiles g m n]
  exact Finset.sum_congr rfl fun s _ => (Finset.sum_range (fun q => g (m * s + q))).symm

variable {α : Type}

/-- A column [a, 1] cast to the vector shape [a] reads, at i, the column's entry at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.KernelSum.lean ====
/-
  The idealized kernel's value at an output index.

  The kernel forms the product of a [2048, 16384] matrix L with a [16384, 2048] matrix W block by block: the output is
  cut into two row blocks of 1024 rows, the contraction axis into 32 tiles of 512 positions. For each row block the
  32 grid points of its run each add, to what the point before left (zero at the run's first point), the product of a
  [1024, 512] block of L with a [512, 2048] block of W. Read at an output index (p, q), the first run point leaves
  0 + (the sum over the first tile), every later point adds its own tile's sum, and the 32 tiles of 512 positions are
  the 16384 positions of the contraction axis: the value is the sum over n of L (p, n) · W (n, q).
-/
import proofs.«135660_j81741817577533_1_alg».proof.Proof.Gen.KernelIdeal.Value
import proofs.«135660_j81741817577533_1_alg».proof.Proof.LibPlainDot
import proofs.«135660_j81741817577533_1_alg».proof.Proof.LibTileSum
import Idealize.ShloMosaic.Lib.ValueIdx
import Idealize.ShloMosaic.Lib.Pipeline.Value
import Idealize.ShloMosaic.PureOps.Ideal.Laws

noncomputable section

namespace Cert.KernelSum

open Idealize.ShloMosaic Idealize.ShloMosaic.ValueIdx Cert.KernelIdeal Cert.KernelIdeal.Gen

variable (m : (ℓ : Loc nD τ sig) → Buf (Elt Ideal) ℓ) (c : Dev nD)

/-! ## Where the blocks sit -/

/-- The block index of the left operand's window at grid point t: row block t / 32, contraction tile t % 32. -/
theorem idx_left : ∀ t : Fin cfg0.N, win0_0.index t (0 : Fin 2) = t.val / 32 ∧ win0_0.index t (1 : Fin 2) = t.val % 32 :=
  (by decide +kernel : ∀ t : Fin grid0.N, _)

/-- The block index of the right operand's window at grid point t: contraction tile t % 32, the one column block. -/
theorem idx_right : ∀ t : Fin cfg0.N, win0_1.index t (0 : Fin 2) = t.val % 32 ∧ win0_1.index t (1 : Fin 2) = 0 :=
  (by decide +kernel : ∀ t : Fin grid0.N, _)

/-- The left operand's block at grid point t, read at (r, k): L at row 1024 · (t / 32) + r, column 512 · (t % 32) + k. -/
theorem left_block_apply (t : Fin cfg0.N) (r : Fin 1024) (k : Fin 512)
    (hr : 1024 * (t.val / 32) + r.val < 2048) (hk : 512 * (t.val % 32) + k.val < 16384) :
    (iblk m c 0 t : S1024x512.Idx → EReal) (ix2 r k)
      = (V m c main_v12 : S2048x16384.Idx → EReal) (ix2 ⟨1024 * (t.val / 32) + r.val, hr⟩ ⟨512 * (t.val % 32) + k.val, hk⟩) := by
  unfold iblk
  show (V m c main_v12 : S2048x16384.Idx → EReal) (((cfg0.win 0).blk t).view.emb (ix2 r k)) = _
  refine congrArg (V m c main_v12 : S2048x16384.Idx → EReal) ?_
  obtain ⟨e0, e1⟩ := idx_left t
  funext a
  apply Fin.ext
  match a with
  | ⟨0, _⟩ =>
    show win0_0.index t (0 : Fin 2) * 1024 + 1 * r.val = 1024 * (t.val / 32) + r.val
    rw [e0]; omega
  | ⟨1, _⟩ =>
    show win0_0.index t (1 : Fin 2) * 512 + 1 * k.val = 512 * (t.val % 32) + k.val
    rw [e1]; omega

/-- The right operand's block at grid point t, read at (k, q): W at row 512 · (t % 32) + k, column q. -/
theorem right_block_apply (t : Fin cfg0.N) (k : Fin 512) (q : Fin 2048) (hk : 512 * (t.val % 32) + k.val < 16384) :
    (iblk m c 1 t : S512x2048.Idx → EReal) (ix2 k q)
      = (V m c main_arg2 : S16384x2048.Idx → EReal) (ix2 ⟨512 * (t.val % 32) + k.val, hk⟩ q) := by
  unfold iblk
  show (V m c main_arg2 : S16384x2048.Idx → EReal) (((cfg0.win 1).blk t).view.emb (ix2 k q)) = _
  refine congrArg (V m c main_arg2 : S16384x2048.Idx → EReal) ?_
  obtain ⟨e0, e1⟩ := idx_right t
  funext a
  apply Fin.ext
  match a with
  | ⟨0, _⟩ =>
    show win0_1.index t (0 : Fin 2) * 512 + 1 * k.val = 512 * (t.val % 32) + k.val
    rw [e0]; omega
  | ⟨1, _⟩ =>
    show win0_1.index t (1 : Fin 2) * 2048 + 1 * q.val = q.val
    rw [e1]; omega

/-! ## One grid point's step, read at an index -/

/-- The kernel's dimension numbers are those of the plain product of a [1024, 512] by a [512, 2048] matrix. -/
theorem dot_eq : dot_S1024x512_S512x2048_S1024x2048_1_0_0_1_n_n
    = Cert.Lib.plainDot 1024 512 2048 Cert.KernelIdeal.Gen.dot_S1024x512_S512x2048_S1024x2048_1_0_0_1_n_n_wf := rfl

/-- One step at (r, q): what the accumulator held there plus the sum over the tile's 512 positions of the products of
    the left block's row r with the right block's column q. (The narrowing of the right block is the identity on
    extended reals; the product is formed into a zero accumulator, so it is the bare sum.) -/
theorem step_apply (x0 : FVec Ideal S1024x512 .bf16) (x1 : FVec Ideal S512x2048 .f32) (acc : FVec Ideal S1024x2048 .f32)
    (r : Fin 1024) (q : Fin 2048) :
    (k0_pay2 (F := Ideal) x0 x1 acc : S1024x2048.Idx → EReal) (ix2 r q)
      = acc (ix2 r q) + ∑ k : Fin 512, x0 (ix2 r k) * x1 (ix2 k q) := by
  show (shapeCast S1024x2048 acc shapeCasts_S1024x2048_S1024x2048 : S1024x2048.Idx → EReal) (ix2 r q)
      + (FloatOps.matmul dot_S1024x512_S512x2048_S1024x2048_1_0_0_1_n_n none
          (shapeCast S1024x512 x0 shapeCasts_S1024x512_S1024x512) (truncf .bf16 x1 bitsLt_bf16_f32)
          (constant (F := Ideal) S1024x2048 .f32 0x00000000#32) : S1024x2048.Idx → EReal) (ix2 r q) = _
  refine congrArg₂ (· + ·) (congrFun (shapeCast_self acc shapeCasts_S1024x2048_S1024x2048) (ix2 r q)) ?_
  rw [dot_eq]
  refine (Cert.Lib.matmul_zero_apply Cert.KernelIdeal.Gen.dot_S1024x512_S512x2048_S1024x2048_1_0_0_1_n_n_wf none
    (shapeCast S1024x512 x0 shapeCasts_S1024x512_S1024x512) (truncf .bf16 x1 bitsLt_bf16_f32) r q).trans ?_
  rw [shapeCast_self x0 shapeCasts_S1024x512_S1024x512]
  rfl

/-- The value a run starts from is zero everywhere. -/
theorem zero_apply (i : S1024x2048.Idx) : (k0_pay1 (F := Ideal) : S1024x2048.Idx → EReal) i = 0 := by
  show Ideal.ofBits .f32 0x00000000#32 = 0
  exact Ideal.ofBits_zero_f32

/-! ## The operands as functions of two naturals -/

/-- L at row a, column b (zero outside the array: never read there). -/
def Lf (a b : ℕ) : EReal :=
  if h : a < 2048 ∧ b < 16384 then (V m c main_v12 : S2048x16384.Idx → EReal) (ix2 ⟨a, h.1⟩ ⟨b, h.2⟩) else 0

/-- W at row a, column b (zero outside the array: never read there). -/
def Wf (a b : ℕ) : EReal :=
  if h : a < 16384 ∧ b < 2048 then (V m c main_arg2 : S16384x2048.Idx → EReal) (ix2 ⟨a, h.1⟩ ⟨b, h.2⟩) else 0

/-- The product's term at contraction position n, for the output index (a, b). -/
def term (a b n : ℕ) : EReal := Lf m c a n * Wf m c n b

/-- What grid point n adds at place (a, b) of its output block: the sum over its tile's 512 contraction positions,
    512 · (n % 32) + k, of the terms for the output row 1024 · (n / 32) + a. -/
def tile (n a b : ℕ) : EReal :=
  ∑ k : Fin 512, term m c (1024 * (n / 32) + a) b (512 * (n % 32) + k.val)

/-- One grid point's step over the point's own input blocks, at (r, q): the accumulator there plus the point's tile. -/
theorem point_apply (n : ℕ) (h : n < cfg0.N) (acc : FVec Ideal S1024x2048 .f32) (r : Fin 1024) (q : Fin 2048) :
    (k0_pay2 (F := Ideal) (iblk m c 0 ⟨n, h⟩) (iblk m c 1 ⟨n, h⟩) acc : S1024x2048.Idx → EReal) (ix2 r q)
      = acc (ix2 r q) + tile m c n r.val q.val := by
  have hN : n < 64 := lt_of_lt_of_eq h (show cfg0.N = 64 from N_0)
  refine (step_apply (iblk m c 0 ⟨n, h⟩) (iblk m c 1 ⟨n, h⟩) acc r q).trans ?_
  refine congrArg (acc (ix2 r q) + ·) ?_
  unfold tile
  refine Finset.sum_congr rfl fun k _ => ?_
  have hr : 1024 * (n / 32) + r.val < 2048 := by have := r.isLt; omega
  have hk : 512 * (n % 32) + k.val < 16384 := by have := k.isLt; omega
  have hq : q.val < 2048 := q.isLt
  refine (congrArg₂ (fun x y : EReal => x * y) (left_block_apply m c ⟨n, h⟩ r k hr hk) (right_block_apply m c ⟨n, h⟩ k q hk)).trans ?_
  unfold term Lf Wf
  rw [dif_pos ⟨hr, hk⟩, dif_pos ⟨hk, hq⟩]

/-! ## A run's fold, read at an index -/

/-- The fold of the 32 points b, b + 1, …, b + 31 at place (r, q): zero plus the 32 points' tiles. -/
theorem fold_apply (b : ℕ) (h : b + 31 < cfg0.N) (r : Fin 1024) (q : Fin 2048) :
    (Pipeline.accAt (Value.reset2 m c) (Value.step2 m c) b 31 h : S1024x2048.Idx → EReal) (ix2 r q)
      = ∑ s ∈ Finset.range 32, tile m c (b + s) r.val q.val := by
  have key := Pipeline.accAt_add_apply (ι := S1024x2048.Idx) (β := EReal) (Value.reset2 m c) (Value.step2 m c)
    (fun _ => 0) (fun n i => tile m c n (i 0).val (i 1).val) b 31
    (fun hb i => by
      obtain ⟨r', q', rfl⟩ : ∃ (r' : Fin 1024) (q' : Fin 2048), i = ix2 r' q' := ⟨i 0, i 1, eq_ix2 i⟩
      show (k0_pay2 (F := Ideal) (iblk m c 0 ⟨b, hb⟩) (iblk m c 1 ⟨b, hb⟩) (k0_pay1 (F := Ideal)) : S1024x2048.Idx → EReal) (ix2 r' q')
        = 0 + tile m c b r'.val q'.val
      rw [point_apply m c b hb (k0_pay1 (F := Ideal)) r' q', zero_apply])
    (fun n hn acc i _ _ => by
      obtain ⟨r', q', rfl⟩ : ∃ (r' : Fin 1024) (q' : Fin 2048), i = ix2 r' q' := ⟨i 0, i 1, eq_ix2 i⟩
      exact point_apply m c n hn acc r' q')
    31 (le_refl _) h (ix2 r q)
  refine key.trans ?_
  show (0 : EReal) + ∑ s ∈ Finset.range 32, tile m c (b + s) r.val q.val = _
  exact zero_add _

/-! ## The array after the run -/

/-- THE KERNEL'S VALUE at the output index (p, q): the sum over the 16384 contraction positions n of L (p, n) · W (n, q). -/
theorem G2_apply (p q : Fin 2048) :
    @Eq EReal (Cert.KernelIdeal.Value.G2 (F := Ideal) m c (ix2 p q))
      (∑ n : Fin 16384, @HMul.hMul EReal EReal EReal instHMul
        ((V m c main_v12 : S2048x16384.Idx → EReal) (ix2 p n)) ((V m c main_arg2 : S16384x2048.Idx → EReal) (ix2 n q))) := by
  have hN : cfg0.N = 64 := N_0
  have hp : p.val < 2048 := p.isLt
  have hq : q.val < 2048 := q.isLt
  have hrun : Value.run2Of (ix2 p q) = p.val / 1024 := by
    show 1 * (p.val / 1024 - 0) + 1 * (q.val / 2048 - 0) = p.val / 1024
    omega
  have hlt : 32 * Value.run2Of (ix2 p q) + 31 < cfg0.N := by rw [hrun, hN]; omega
  have hloc : Value.loc2Of (ix2 p q)
      = ix2 (⟨p.val % 1024, Nat.mod_lt _ (by decide)⟩ : Fin 1024) (⟨q.val % 2048, Nat.mod_lt _ (by decide)⟩ : Fin 2048) := by
    funext a
    match a with
    | ⟨0, _⟩ => rfl
    | ⟨1, _⟩ => rfl
  have hG : @Eq EReal (Value.G2 (F := Ideal) m c (ix2 p q))
      ((Pipeline.accAt (Value.reset2 m c) (Value.step2 m c) (32 * Value.run2Of (ix2 p q)) 31 hlt : S1024x2048.Idx → EReal)
          (Value.loc2Of (ix2 p q))) := by
    unfold Value.G2
    exact dif_pos hlt
  rw [hG, hloc, fold_apply m c (32 * Value.run2Of (ix2 p q)) hlt, hrun]
  have htile : ∀ s ∈ Finset.range 32, tile m c (32 * (p.val / 1024) + s) (p.val % 1024) (q.val % 2048)
      = ∑ k : Fin 512, term m c p.val q.val (512 * s + k.val) := by
    intro s hs
    have hs' : s < 32 := Finset.mem_range.mp hs
    unfold tile
    refine Finset.sum_congr rfl fun k _ => ?_
    have e1 : 1024 * ((32 * (p.val / 1024) + s) / 32) + p.val % 1024 = p.val := by omega
    have e2 : 512 * ((32 * (p.val / 1024) + s) % 32) + k.val = 512 * s + k.val := by omega
    have e3 : q.val % 2048 = q.val := by omega
    rw [e1, e2, e3]
  rw [Finset.sum_congr rfl htile, Cert.Lib.sum_fin_tiles (term m c p.val q.val) 512 32 (N := 16384) rfl]
  refine Finset.sum_congr rfl fun n _ => ?_
  have hn : n.val < 16384 := n.isLt
  unfold term Lf Wf
  rw [dif_pos ⟨hp, hn⟩, dif_pos ⟨hn, hq⟩]

end Cert.KernelSum

end
-- ==== Proof.Spec.lean ====
/-
  The arithmetic of the lookup layer, independent of any program.

  A detector reads four thresholded activations b0 … b3 (each one bit) and packs them into the channel number
  b0 + 2·b1 + 4·b2 + 8·b3, a word below 16. Detector i of sample p with channel c fires lookup neuron 16·i + c.

  One program marks the fired neuron of every detector by a one-hot row: entry n of sample p's row is 1 exactly when
  detector n / 16 has channel n mod 16. The other adds 1 at (p, 16·i + c) for every detector i; because c is below 16
  the position 16·i + c determines i and c, so at most one detector lands on a given n, and the count there is the
  same 1 or 0.

  The words are 32-bit: 16·i + c stays below 16400 for i below 1024, far from the sign bit, so the wrap-around of
  negative indices (add the extent when the word is negative) never applies and the signed reading is the number.
-/
import Idealize.ShloMosaic.PureOps.Ideal
import Idealize.ShloMosaic.Lib.ValueIdx

noncomputable section

namespace Cert.Spec

open Idealize.ShloMosaic Idealize.ShloMosaic.ValueIdx

/-! ## Words -/

/-- One thresholded activation, widened, times its weight 2^k. -/
def bitTerm (b : BitVec 1) (k : ℕ) : BitVec 32 := IntOp.muli (b.setWidth 32) (IntOp.shli .host 1#32 (BitVec.ofNat 32 k))

/-- Four bits packed with the weights 1, 2, 4, 8 give a word below 16. -/
theorem pack_lt (b0 b1 b2 b3 : BitVec 1) :
    (IntOp.addi (bitTerm b0 0) (IntOp.addi (bitTerm b1 1) (IntOp.addi (bitTerm b2 2) (IntOp.addi (bitTerm b3 3) 0#32)))).toNat < 16 := by
  rcases BitVec.eq_zero_or_eq_one b0 with h | h <;> rcases BitVec.eq_zero_or_eq_one b1 with h1 | h1 <;>
  rcases BitVec.eq_zero_or_eq_one b2 with h2 | h2 <;> rcases BitVec.eq_zero_or_eq_one b3 with h3 | h3 <;>
  subst h <;> subst h1 <;> subst h2 <;> subst h3 <;> decide

/-- A small number as a 32-bit word, read signed, is the number. -/
theorem toInt_of_toNat_small (v : BitVec 32) (h : v.toNat < 2147483648) : v.toInt = (v.toNat : Int) := by
  rw [BitVec.toInt_eq_toNat_cond]
  split <;> omega

/-- A word that is small is not negative. -/
theorem slt_zero_of_small (v : BitVec 32) (h : v.toNat < 2147483648) : IntOp.cmpi .slt v 0#32 = 0#1 := by
  unfold IntOp.cmpi
  have hs : v.slt 0#32 = false := by
    rw [BitVec.slt_eq_decide, toInt_of_toNat_small v h]
    have : (0#32 : BitVec 32).toInt = 0 := rfl
    rw [this]
    exact decide_eq_false (by omega)
  rw [hs]; rfl

/-- The sample index as the scatter reads it: wrapped by the extent 2048 if negative. -/
def batchWord (r : ℕ) : BitVec 32 :=
  Scalar.select (IntOp.cmpi .slt (BitVec.ofNat 32 r) 0#32) (IntOp.addi (BitVec.ofNat 32 r) 2048#32) (BitVec.ofNat 32 r)

theorem batchWord_toInt (r : ℕ) (hr : r < 2048) : (batchWord r).toInt = (r : Int) := by
  have hn : (BitVec.ofNat 32 r).toNat = r := by rw [BitVec.toNat_ofNat]; exact Nat.mod_eq_of_lt (by omega)
  unfold batchWord
  rw [slt_zero_of_small _ (by rw [hn]; omega), select_zero, toInt_of_toNat_small _ (by rw [hn]; omega), hn]

/-- The neuron index of detector i with channel word c as the scatter reads it: 16·i + c, wrapped by the extent 16384
    if negative. -/
def neuronWord (i : ℕ) (c : BitVec 32) : BitVec 32 :=
  Scalar.select (IntOp.cmpi .slt (IntOp.addi (IntOp.muli (BitVec.ofNat 32 i) 16#32) c) 0#32)
    (IntOp.addi (IntOp.addi (IntOp.muli (BitVec.ofNat 32 i) 16#32) c) 16384#32)
    (IntOp.addi (IntOp.muli (BitVec.ofNat 32 i) 16#32) c)

theorem neuronWord_toInt (i : ℕ) (hi : i < 1024) (c : BitVec 32) (hc : c.toNat < 16) :
    (neuronWord i c).toInt = ((i * 16 + c.toNat : ℕ) : Int) := by
  have hn : (IntOp.addi (IntOp.muli (BitVec.ofNat 32 i) 16#32) c).toNat = i * 16 + c.toNat := by
    unfold IntOp.addi IntOp.muli
    rw [BitVec.toNat_add, BitVec.toNat_mul, BitVec.toNat_ofNat]
    have h16 : (16#32 : BitVec 32).toNat = 16 := rfl
    rw [h16]; omega
  unfold neuronWord
  rw [slt_zero_of_small _ (by rw [hn]; omega), select_zero, toInt_of_toNat_small _ (by rw [hn]; omega), hn]

/-- The one-hot entry: the comparison of the channel word with k, as a number, is 1 when the channel is k and 0
    otherwise. -/
theorem onehot_word (c : BitVec 32) (k : ℕ) (hk : k < 16) :
    (((IntOp.cmpi .eq c (BitVec.ofNat 32 k)).toNat : ℝ) : EReal) = if c.toNat = k then 1 else 0 := by
  have hn : (BitVec.ofNat 32 k).toNat = k := by rw [BitVec.toNat_ofNat]; exact Nat.mod_eq_of_lt (by omega)
  unfold IntOp.cmpi
  by_cases h : c.toNat = k
  · have e : c = BitVec.ofNat 32 k := BitVec.eq_of_toNat_eq (by rw [hn]; exact h)
    rw [if_pos h, e]
    simp
  · have e : ¬ c = BitVec.ofNat 32 k := fun e => h (by rw [e]; exact hn)
    rw [if_neg h]
    simp [e]

/-! ## The fired neuron, counted -/

/-- Entry n of sample p's row: 1 when detector n / 16 has channel n mod 16. -/
def hot (chan : (⟨2, ![2048, 1024]⟩ : Shape).Idx → BitVec 32) (p : Fin 2048) (n : Fin 16384) : EReal :=
  if (chan (ix2 p ⟨n.val / 16, by have := n.isLt; omega⟩)).toNat = n.val % 16 then 1 else 0

/-- THE COUNT: among all (sample, detector) pairs, those whose index words are (p, n) number one or none — the pair
    (p, n / 16), present exactly when that detector's channel is n mod 16. -/
theorem count_eq_hot (chan : (⟨2, ![2048, 1024]⟩ : Shape).Idx → BitVec 32) (hc : ∀ j, (chan j).toNat < 16)
    (p : Fin 2048) (n : Fin 16384) :
    (0 : EReal) + ∑ j ∈ Finset.univ.filter (fun j : (⟨2, ![2048, 1024]⟩ : Shape).Idx =>
        (batchWord (j 0).val).toInt = (p.val : Int) ∧ (neuronWord (j 1).val (chan j)).toInt = (n.val : Int)), (1 : EReal)
      = hot chan p n := by
  have hn := n.isLt
  have key : ∀ j : (⟨2, ![2048, 1024]⟩ : Shape).Idx,
      ((batchWord (j 0).val).toInt = (p.val : Int) ∧ (neuronWord (j 1).val (chan j)).toInt = (n.val : Int))
        ↔ (j = ix2 p ⟨n.val / 16, by omega⟩ ∧ (chan (ix2 p ⟨n.val / 16, by omega⟩)).toNat = n.val % 16) := by
    intro j
    have hj0 : (j 0).val < 2048 := (j 0).isLt
    have hj1 : (j 1).val < 1024 := (j 1).isLt
    rw [batchWord_toInt _ hj0, neuronWord_toInt _ hj1 _ (hc j)]
    have hcj := hc j
    constructor
    · rintro ⟨h0, h1⟩
      have e0 : (j 0).val = p.val := by omega
      have e1 : (j 1).val = n.val / 16 := by omega
      have ej : j = ix2 p ⟨n.val / 16, by omega⟩ := by
        funext a
        apply Fin.ext
        match a with
        | ⟨0, _⟩ => exact e0
        | ⟨1, _⟩ => exact e1
      refine ⟨ej, ?_⟩
      rw [← ej]; omega
    · rintro ⟨ej, h⟩
      subst ej
      refine ⟨rfl, ?_⟩
      show (((n.val / 16) * 16 + (chan (ix2 p ⟨n.val / 16, _⟩)).toNat : ℕ) : Int) = (n.val : Int)
      omega
  rw [Finset.sum_congr (Finset.filter_congr fun j _ => key j) fun _ _ => rfl, zero_add]
  unfold hot
  by_cases h : (chan (ix2 p ⟨n.val / 16, by omega⟩)).toNat = n.val % 16
  · rw [if_pos h]
    have : (Finset.univ.filter fun j : (⟨2, ![2048, 1024]⟩ : Shape).Idx =>
        j = ix2 p ⟨n.val / 16, by omega⟩ ∧ (chan (ix2 p ⟨n.val / 16, by omega⟩)).toNat = n.val % 16) = {ix2 p ⟨n.val / 16, by omega⟩} := by
      ext j; simp [h]
    rw [this, Finset.sum_singleton]
  · rw [if_neg h]
    have : (Finset.univ.filter fun j : (⟨2, ![2048, 1024]⟩ : Shape).Idx =>
        j = ix2 p ⟨n.val / 16, by omega⟩ ∧ (chan (ix2 p ⟨n.val / 16, by omega⟩)).toNat = n.val % 16) = ∅ := by
      ext j; simp [h]
    rw [this, Finset.sum_empty]

end Cert.Spec

end
-- ==== Proof.LibHostStack.lean ====
/-
  Host layout operations on stacks of matrices, read at an index given by coordinates. Independent of any program.

  The host repeats an array along new or unit axes by naming, for each axis of the operand, the axis of the result
  it goes to. For a rank-three result [a, b, c]:

  * a matrix [a, b] placed on axes 0 and 1 of [a, b, 1] is read at (r, i);
  * a stack of columns [a, b, 1] repeated along the last axis is read at its one column, (r, i, 0);
  * a single row [1, 1, c] repeated over the whole stack is read at (0, 0, j);
  * a vector [c] placed on the last axis of [1, 1, c] is read at j.

  Two stacks of columns [a, b, 1] laid side by side along the last axis give [a, b, 2]: entry (r, i, k) is column
  k's entry (r, i, 0).

  A reduction of [a, b, c] over its last axis by a commutative, associative operation is, at (r, i), the fold of the
  operation over the c entries (r, i, k), from the initial value; over four entries the fold is written out.
-/
import Idealize.ShloMosaic.Lib.ValueIdx
import Idealize.ShloMosaic.Lib.Pipeline.Value
import Idealize.ShloMosaic.PureOps.Reduce

noncomputable section

namespace Cert.LibHostStack

open Idealize.ShloMosaic Idealize.ShloMosaic.ValueIdx

variable {α : Type}

/-- A matrix [a, b] placed on axes 0 and 1 of [a, b, 1] reads, at (r, i, u), the matrix's entry (r, i). -/
theorem bid_ab_ab1_apply {a b : ℕ} (x : (⟨2, ![a, b]⟩ : Shape).Idx → α)
    (h : (⟨2, ![a, b]⟩ : Shape).BroadcastsInDim ⟨3, ![a, b, 1]⟩ ![0, 1]) (r : Fin a) (i : Fin b) (u : Fin 1) :
    broadcastInDim ⟨3, ![a, b, 1]⟩ ![0, 1] h x (ix3 r i u) = x (ix2 r i) := by
  refine broadcastInDim_apply ![0, 1] h x (ix3 r i u) (ix2 r i) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl

/-- A stack of columns [a, b, 1] repeated along the last axis reads, at (r, i, j), the column's entry (r, i, 0). -/
theorem bid_ab1_abc_apply {a b c : ℕ} (x : (⟨3, ![a, b, 1]⟩ : Shape).Idx → α)
    (h : (⟨3, ![a, b, 1]⟩ : Shape).BroadcastsInDim ⟨3, ![a, b, c]⟩ ![0, 1, 2]) (r : Fin a) (i : Fin b) (j : Fin c) :
    broadcastInDim ⟨3, ![a, b, c]⟩ ![0, 1, 2] h x (ix3 r i j) = x (ix3 r i (0 : Fin 1)) := by
  refine broadcastInDim_apply ![0, 1, 2] h x (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- A single row [1, 1, c] repeated over a stack reads, at (r, i, j), the row's entry (0, 0, j). -/
theorem bid_11c_abc_apply {a b c : ℕ} (x : (⟨3, ![1, 1, c]⟩ : Shape).Idx → α)
    (h : (⟨3, ![1, 1, c]⟩ : Shape).BroadcastsInDim ⟨3, ![a, b, c]⟩ ![0, 1, 2]) (r : Fin a) (i : Fin b) (j : Fin c) :
    broadcastInDim ⟨3, ![a, b, c]⟩ ![0, 1, 2] h x (ix3 r i j) = x (ix3 (0 : Fin 1) (0 : Fin 1) j) := by
  refine broadcastInDim_apply ![0, 1, 2] h x (ix3 r i j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A vector [c] placed on the last axis of [1, 1, c] reads, at (u, v, j), the vector's entry j. -/
theorem bid_c_11c_apply {c : ℕ} (x : (⟨1, ![c]⟩ : Shape).Idx → α)
    (h : (⟨1, ![c]⟩ : Shape).BroadcastsInDim ⟨3, ![1, 1, c]⟩ ![2]) (u v : Fin 1) (j : Fin c) :
    broadcastInDim ⟨3, ![1, 1, c]⟩ ![2] h x (ix3 u v j) = x (ix1 j) := by
  refine broadcastInDim_apply ![2] h x (ix3 u v j) (ix1 j) fun ax => ?_
  match ax with
  | ⟨0, _⟩ =>
    show j.val = if c = 1 then 0 else j.val
    split
    · have := j.isLt; omega
    · rfl

/-- Two stacks of columns [a, b, 1] laid side by side along the last axis: entry (r, i, k) is column k's entry (r, i, 0). -/
theorem concat2_cols {a b : ℕ} (x0 x1 : (⟨3, ![a, b, 1]⟩ : Shape).Idx → α)
    (h : Shape.Concatenates (([⟨⟨3, ![a, b, 1]⟩, x0⟩, ⟨⟨3, ![a, b, 1]⟩, x1⟩] :
      List ((s : Shape) × (s.Idx → α))).map (·.1)) ⟨3, ![a, b, 2]⟩ (2 : Fin 3))
    (r : Fin a) (i : Fin b) (k : Fin 2) :
    concatenate ⟨3, ![a, b, 2]⟩ (2 : Fin 3) [⟨⟨3, ![a, b, 1]⟩, x0⟩, ⟨⟨3, ![a, b, 1]⟩, x1⟩] h (ix3 r i k)
      = (![x0, x1] k) (ix3 r i (0 : Fin 1)) := by
  have hi : ∀ (k : Fin 2) (bx : Fin 3), bx.cast (rfl : (3 : ℕ) = 3) ≠ (2 : Fin 3) →
      ((ix3 r i (0 : Fin 1) : (⟨3, ![a, b, 1]⟩ : Shape).Idx) bx).val = ((ix3 r i k : (⟨3, ![a, b, 2]⟩ : Shape).Idx) (bx.cast rfl)).val := by
    intro k bx hb
    match bx with
    | ⟨0, _⟩ => rfl
    | ⟨1, _⟩ => rfl
    | ⟨2, _⟩ => exact absurd rfl hb
  match k with
  | ⟨0, hk⟩ => exact concatenate_apply_piece (2 : Fin 3) [⟨⟨3, ![a, b, 1]⟩, x0⟩, ⟨⟨3, ![a, b, 1]⟩, x1⟩] h (ix3 r i ⟨0, hk⟩) 0 (by simp) ⟨3, ![a, b, 1]⟩ x0 rfl rfl 0 rfl (ix3 r i (0 : Fin 1)) (hi _) rfl
  | ⟨1, hk⟩ => exact concatenate_apply_piece (2 : Fin 3) [⟨⟨3, ![a, b, 1]⟩, x0⟩, ⟨⟨3, ![a, b, 1]⟩, x1⟩] h (ix3 r i ⟨1, hk⟩) 1 (by simp) ⟨3, ![a, b, 1]⟩ x1 rfl rfl 1 rfl (ix3 r i (0 : Fin 1)) (hi _) rfl

/-- A reduction of [a, b, c] over its last axis, at (r, i): the fold over the entries (r, i, k). -/
theorem reduce_last_apply {a b c : ℕ} {u : Shape} (f : α → α → α) [Std.Commutative f] [Std.Associative f]
    (x : (⟨3, ![a, b, c]⟩ : Shape).Idx → α) (init : u.Idx → α)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (r : Fin a) (i : Fin b) :
    Host.reduce f x init h' hu (ix2 r i)
      = (Finset.univ : Finset (Fin c)).fold f (init (Shape.Idx.first hu)) (fun k => x (ix3 r i k)) := by
  rw [Host.reduce_eq_fold_single f x init h' h hu (ix2 r i)]
  refine congrArg (fun g => (Finset.univ : Finset (Fin c)).fold f (init (Shape.Idx.first hu)) g) (funext fun k => ?_)
  refine congrArg x (funext fun ax => Fin.ext ?_)
  rw [Shape.Reduces.lift_val]
  match ax with
  | ⟨0, _⟩ => rfl
  | ⟨1, _⟩ => rfl
  | ⟨2, _⟩ => rfl

/-- A fold of a commutative, associative operation over four entries, written out. -/
theorem fold_fin4 (f : α → α → α) [Std.Commutative f] [Std.Associative f] (b : α) (g : Fin 4 → α) :
    (Finset.univ : Finset (Fin 4)).fold f b g = f (g 0) (f (g 1) (f (g 2) (f (g 3) b))) := by
  have hu : (Finset.univ : Finset (Fin 4)) = insert 0 (insert 1 (insert 2 (insert 3 ∅))) := by decide
  rw [hu, Finset.fold_insert (by decide), Finset.fold_insert (by decide), Finset.fold_insert (by decide),
    Finset.fold_insert (by decide), Finset.fold_empty]

end Cert.LibHostStack

end
-- ==== Proof.Pack.lean ====
/-
  The channel of every detector, as the host computes it from the gathered activations. Independent of any program
  but for the sizes: 2048 samples, 1024 detectors, 4 anchors each.

  The gathered activations t (p, i, k) are compared with zero; the resulting bits, widened to words, are multiplied by
  the weights 1 << k (k = 0 … 3, an iota shifted into a constant one, laid along the last axis and repeated over
  samples and detectors) and summed over k from zero. At (p, i) the sum is b0 + 2·b1 + 4·b2 + 8·b3 with the four bits
  of that detector, hence below 16 whatever the activations are (infinite or undefined activations included: only the
  bit matters).
-/
import proofs.«135660_j81741817577533_1_alg».proof.Proof.Spec
import proofs.«135660_j81741817577533_1_alg».proof.Proof.LibHostStack
import Idealize.ShloMosaic.Lib.IdealHost
import Idealize.ShloMosaic.Lib.ValueLayout

noncomputable section

namespace Cert.Pack

open Idealize.ShloMosaic Idealize.ShloMosaic.ValueIdx

abbrev S0 : Shape := ⟨0, ![]⟩
abbrev S4 : Shape := ⟨1, ![4]⟩
abbrev S114 : Shape := ⟨3, ![1, 1, 4]⟩
abbrev S3 : Shape := ⟨3, ![2048, 1024, 4]⟩
abbrev S2 : Shape := ⟨2, ![2048, 1024]⟩

/-- The channels from the gathered activations: threshold, widen, weight by 1 << k, sum over k. The shape facts are
    arguments, so that any program's witnesses of them give this same function. -/
def pack (t : FVec Ideal S3 .f32) (hb0 : S0.BroadcastsInDim S3 ![]) (hlt : 1 < 32) (hb1 : S0.BroadcastsInDim S4 ![])
    (hb2 : S4.BroadcastsInDim S114 ![2]) (hb3 : S114.BroadcastsInDim S3 ![0, 1, 2]) (hr : S3.ReducesTo [2] S2)
    (hu : 0 < S0.numel) : IVec S2 32 :=
  Host.reduce IntOp.addi
    (muli (extui 32 (cmpf .ogt t (broadcastInDim S3 ![] hb0 (constant (F := Ideal) S0 .f32 0x00000000#32))) hlt)
      (broadcastInDim S3 ![0, 1, 2] hb3 (broadcastInDim S114 ![2] hb2
        (Host.shli (broadcastInDim S4 ![] hb1 (constantI S0 32 1#32)) (iotaInDim S4 32 0)))))
    (constantI S0 32 0#32) hr hu

/-- Every channel is below 16. -/
theorem pack_lt (t : FVec Ideal S3 .f32) (hb0 : S0.BroadcastsInDim S3 ![]) (hlt : 1 < 32) (hb1 : S0.BroadcastsInDim S4 ![])
    (hb2 : S4.BroadcastsInDim S114 ![2]) (hb3 : S114.BroadcastsInDim S3 ![0, 1, 2]) (hr : S3.ReducesTo [2] S2)
    (hu : 0 < S0.numel) (j : S2.Idx) : (pack t hb0 hlt hb1 hb2 hb3 hr hu j).toNat < 16 := by
  obtain ⟨r, i, rfl⟩ : ∃ (r : Fin 2048) (i : Fin 1024), j = ix2 r i := ⟨j 0, j 1, eq_ix2 j⟩
  unfold pack
  rw [Cert.LibHostStack.reduce_last_apply IntOp.addi _ _ hr (by decide) hu r i, Cert.LibHostStack.fold_fin4]
  have hw : ∀ k : Fin 4,
      (muli (extui 32 (cmpf .ogt t (broadcastInDim S3 ![] hb0 (constant (F := Ideal) S0 .f32 0x00000000#32))) hlt)
        (broadcastInDim S3 ![0, 1, 2] hb3 (broadcastInDim S114 ![2] hb2
          (Host.shli (broadcastInDim S4 ![] hb1 (constantI S0 32 1#32)) (iotaInDim S4 32 0))))) (ix3 r i k)
        = Cert.Spec.bitTerm (cmpf .ogt t (broadcastInDim S3 ![] hb0 (constant (F := Ideal) S0 .f32 0x00000000#32)) (ix3 r i k)) k.val := by
    intro k
    show IntOp.muli _ _ = _
    unfold Cert.Spec.bitTerm
    rw [extui_apply, Cert.LibHostStack.bid_11c_abc_apply, Cert.LibHostStack.bid_c_11c_apply]
    show IntOp.muli _ (IntOp.shli .host (broadcastInDim S4 ![] hb1 (constantI S0 32 1#32) (ix1 k)) (iotaInDim S4 32 0 (ix1 k))) = _
    rw [broadcastInDim_scalar_apply, constantI_apply, iotaInDim_apply]
  rw [hw 0, hw 1, hw 2, hw 3]
  exact Cert.Spec.pack_lt _ _ _ _

end Cert.Pack

end
-- ==== Proof.LibRank3.lean ====
/-
  Stacks of matrices read at an index given by coordinates.

  A rank-three array [a, b, c] is a stack of `a` matrices. The layout operations that move between
  such a stack, its rows flattened [a, b·c], and the columns and rows of its matrices are read here
  at indices written `ix2 r l`, `ix3 r i j`:

  * a cast [a, n] → [a, b, c] with n = b·c reads (r, i, j) at (r, i·c + j), and back;
  * a cast [a, b] → [a, b, 1] (a column per matrix) and [a, b] → [a, 1, b] (a row per matrix), and back;
  * a broadcast of one matrix [1, b, c] over the stack, of a column [a, b, 1] along the rows, of a row
    [a, 1, c] down the columns;
  * the slice of one entry of the last axis, [a, b, c] → [a, b, 1];
  * four columns [a, b, 1] laid side by side into [a, b, 4]: entry (r, i, c) is column c's entry (r, i);
  * the sum over the last axis, at the extended reals: entry (r, i) is the sum over j of (r, i, j).
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- [a, n] cast to [a, b, c], n = b·c: entry (r, i, j) is the flat row's entry i·c + j. -/
theorem cast_flat_to_stack {a n b c : ℕ} (hn : n = b * c) (x : (⟨2, ![a, n]⟩ : Shape).Idx → α)
    (h : (⟨2, ![a, n]⟩ : Shape).ShapeCasts ⟨3, ![a, b, c]⟩) (r : Fin a) (i : Fin b) (j : Fin c) (hl : i.val * c + j.val < n) :
    shapeCast ⟨3, ![a, b, c]⟩ x h (ix3 r i j) = x (ix2 r ⟨i.val * c + j.val, hl⟩) :=
  shapeCast_apply x h _ _ (by
    rw [Shape.rowMajor_val_three, Shape.rowMajor_val_two]
    show r.val * n + (i.val * c + j.val) = (r.val * b + i.val) * c + j.val
    subst hn; ring)

/-- [a, b, c] cast to [a, n], n = b·c: the flat row's entry i·c + j is entry (r, i, j). -/
theorem cast_stack_to_flat {a n b c : ℕ} (hn : n = b * c) (x : (⟨3, ![a, b, c]⟩ : Shape).Idx → α)
    (h : (⟨3, ![a, b, c]⟩ : Shape).ShapeCasts ⟨2, ![a, n]⟩) (r : Fin a) (i : Fin b) (j : Fin c) (hl : i.val * c + j.val < n) :
    shapeCast ⟨2, ![a, n]⟩ x h (ix2 r ⟨i.val * c + j.val, hl⟩) = x (ix3 r i j) :=
  shapeCast_apply x h _ _ (by
    rw [Shape.rowMajor_val_three, Shape.rowMajor_val_two]
    show (r.val * b + i.val) * c + j.val = r.val * n + (i.val * c + j.val)
    subst hn; ring)

/-- [a, b] cast to [a, b, 1]: a column per matrix. -/
theorem cast_to_col {a b : ℕ} (x : (⟨2, ![a, b]⟩ : Shape).Idx → α)
    (h : (⟨2, ![a, b]⟩ : Shape).ShapeCasts ⟨3, ![a, b, 1]⟩) (r : Fin a) (i : Fin b) (u : Fin 1) :
    shapeCast ⟨3, ![a, b, 1]⟩ x h (ix3 r i u) = x (ix2 r i) :=
  shapeCast_apply x h _ _ (by
    have hu : u.val = 0 := by omega
    rw [Shape.rowMajor_val_three, Shape.rowMajor_val_two]
    show r.val * b + i.val = (r.val * b + i.val) * 1 + u.val
    rw [hu]; ring)

/-- [a, b, 1] cast to [a, b]. -/
theorem cast_of_col {a b : ℕ} (x : (⟨3, ![a, b, 1]⟩ : Shape).Idx → α)
    (h : (⟨3, ![a, b, 1]⟩ : Shape).ShapeCasts ⟨2, ![a, b]⟩) (r : Fin a) (i : Fin b) :
    shapeCast ⟨2, ![a, b]⟩ x h (ix2 r i) = x (ix3 r i (0 : Fin 1)) :=
  shapeCast_apply x h _ _ (by
    rw [Shape.rowMajor_val_three, Shape.rowMajor_val_two]
    show (r.val * b + i.val) * 1 + 0 = r.val * b + i.val
    ring)

/-- [a, b] cast to [a, 1, b]: a row per matrix. -/
theorem cast_to_row {a b : ℕ} (x : (⟨2, ![a, b]⟩ : Shape).Idx → α)
    (h : (⟨2, ![a, b]⟩ : Shape).ShapeCasts ⟨3, ![a, 1, b]⟩) (r : Fin a) (u : Fin 1) (j : Fin b) :
    shapeCast ⟨3, ![a, 1, b]⟩ x h (ix3 r u j) = x (ix2 r j) :=
  shapeCast_apply x h _ _ (by
    have hu : u.val = 0 := by omega
    rw [Shape.rowMajor_val_three, Shape.rowMajor_val_two]
    show r.val * b + j.val = (r.val * 1 + u.val) * b + j.val
    rw [hu]; ring)

/-- One matrix [1, b, c] broadcast over a stack. -/
theorem bcast_matrix {a b c : ℕ} (x : (⟨3, ![1, b, c]⟩ : Shape).Idx → α) (h : (⟨3, ![1, b, c]⟩ : Shape).Broadcasts ⟨3, ![a, b, c]⟩)
    (r : Fin a) (i : Fin b) (j : Fin c) : broadcastTo ⟨3, ![a, b, c]⟩ x h (ix3 r i j) = x (ix3 (0 : Fin 1) i j) := by
  refine broadcastTo_apply x h (ix3 r i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A column [a, b, 1] broadcast along the rows of each matrix. -/
theorem bcast_col {a b c : ℕ} (x : (⟨3, ![a, b, 1]⟩ : Shape).Idx → α) (h : (⟨3, ![a, b, 1]⟩ : Shape).Broadcasts ⟨3, ![a, b, c]⟩)
    (r : Fin a) (i : Fin b) (j : Fin c) : broadcastTo ⟨3, ![a, b, c]⟩ x h (ix3 r i j) = x (ix3 r i (0 : Fin 1)) := by
  refine broadcastTo_apply x h (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- A row [a, 1, c] broadcast down the columns of each matrix. -/
theorem bcast_row {a b c : ℕ} (x : (⟨3, ![a, 1, c]⟩ : Shape).Idx → α) (h : (⟨3, ![a, 1, c]⟩ : Shape).Broadcasts ⟨3, ![a, b, c]⟩)
    (r : Fin a) (i : Fin b) (j : Fin c) : broadcastTo ⟨3, ![a, b, c]⟩ x h (ix3 r i j) = x (ix3 r (0 : Fin 1) j) := by
  refine broadcastTo_apply x h (ix3 r i j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- The slice of entry `o` of the last axis. -/
theorem slice_last {a b c : ℕ} (o : Fin c) (x : (⟨3, ![a, b, c]⟩ : Shape).Idx → α)
    (h : (⟨3, ![a, b, c]⟩ : Shape).Slices ![0, 0, o.val] ⟨3, ![a, b, 1]⟩) (r : Fin a) (i : Fin b) (u : Fin 1) :
    extractStridedSlice ⟨3, ![a, b, 1]⟩ ![0, 0, o.val] x h (ix3 r i u) = x (ix3 r i o) := by
  refine extractStridedSlice_apply _ x h (ix3 r i u) (ix3 r i o) fun ax => ?_
  match ax with
  | ⟨0, _⟩ => show r.val = 0 + r.val; omega
  | ⟨1, _⟩ => show i.val = 0 + i.val; omega
  | ⟨2, _⟩ => show o.val = o.val + u.val; omega

/-- The sum over the last axis of a stack, at the extended reals. -/
theorem sum_last {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (r : Fin a) (i : Fin b) :
    multiReduction .add [(2 : Fin 3)] ⟨2, ![a, b]⟩ src acc h hφ hacc (ix2 r i) = ∑ j : Fin c, src (ix3 r i j) := by
  refine (Ideal.multiReduction_add_single src acc h hφ hacc (ix2 r i)).trans ?_
  refine Finset.sum_congr rfl fun j _ => congrArg src (funext fun ax => Fin.ext ?_)
  rw [Shape.Reduces.lift_val]
  match ax with
  | ⟨0, _⟩ => rfl
  | ⟨1, _⟩ => rfl
  | ⟨2, _⟩ => rfl

/-- Four columns [a, b, 1] laid side by side along the last axis: entry (r, i, c) is column `c`'s entry (r, i). -/
theorem concat4_cols {a b : ℕ} (x0 x1 x2 x3 : (⟨3, ![a, b, 1]⟩ : Shape).Idx → α)
    (h : Shape.Concatenates (([⟨⟨3, ![a, b, 1]⟩, x0⟩, ⟨⟨3, ![a, b, 1]⟩, x1⟩, ⟨⟨3, ![a, b, 1]⟩, x2⟩, ⟨⟨3, ![a, b, 1]⟩, x3⟩] :
      List ((s : Shape) × (s.Idx → α))).map (·.1)) ⟨3, ![a, b, 4]⟩ (2 : Fin 3))
    (r : Fin a) (i : Fin b) (c : Fin 4) :
    concatenate ⟨3, ![a, b, 4]⟩ (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i c)
      = (![x0, x1, x2, x3] c) (ix3 r i (0 : Fin 1)) := by
  have hi : ∀ (c : Fin 4) (bx : Fin 3), bx.cast (rfl : (3 : ℕ) = 3) ≠ (2 : Fin 3) →
      ((ix3 r i (0 : Fin 1) : (⟨3, ![a, b, 1]⟩ : Shape).Idx) bx).val = ((ix3 r i c : (⟨3, ![a, b, 4]⟩ : Shape).Idx) (bx.cast rfl)).val := by
    intro c bx hb
    match bx with
    | ⟨0, _⟩ => rfl
    | ⟨1, _⟩ => rfl
    | ⟨2, _⟩ => exact absurd rfl hb
  match c with
  | ⟨0, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨0, hc⟩) 0 (by simp) ⟨3, ![a, b, 1]⟩ x0 rfl rfl 0 rfl (ix3 r i (0 : Fin 1)) (hi _) rfl
  | ⟨1, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨1, hc⟩) 1 (by simp) ⟨3, ![a, b, 1]⟩ x1 rfl rfl 1 rfl (ix3 r i (0 : Fin 1)) (hi _) rfl
  | ⟨2, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨2, hc⟩) 2 (by simp) ⟨3, ![a, b, 1]⟩ x2 rfl rfl 2 rfl (ix3 r i (0 : Fin 1)) (hi _) rfl
  | ⟨3, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨3, hc⟩) 3 (by simp) ⟨3, ![a, b, 1]⟩ x3 rfl rfl 3 rfl (ix3 r i (0 : Fin 1)) (hi _) rfl

end Cert.LibRank3
-- ==== Proof.KernelHost.lean ====
/-
  What the kernel program's host operations leave in the left operand of its matrix product.

  Before the product the host gathers four activations per detector, thresholds and packs them into a channel word
  below 16 for each of the 1024 detectors of each of the 2048 samples, marks the channel by a one-hot row of 16 entries
  (entry k is 1 when the channel is k, else 0) and lays the 1024 rows of a sample end to end. So the left operand's
  entry (p, n), with n = 16 · i + k, is 1 exactly when detector i of sample p has channel k: detector n / 16, channel
  n mod 16. The gathered activations enter only through the channel words, so the gather is carried as one value.
-/
import proofs.«135660_j81741817577533_1_alg».proof.Proof.Gen.KernelIdeal.Frame.Runs
import proofs.«135660_j81741817577533_1_alg».proof.Proof.Spec
import proofs.«135660_j81741817577533_1_alg».proof.Proof.Pack
import proofs.«135660_j81741817577533_1_alg».proof.Proof.LibHostStack
import proofs.«135660_j81741817577533_1_alg».proof.Proof.LibRank3
import Idealize.ShloMosaic.Lib.IdealHost
import Idealize.ShloMosaic.Lib.ValueLayout
import Idealize.ShloMosaic.Lib.ValueIdx
import Idealize.ShloMosaic.Lib.StableHlo.Run

noncomputable section

namespace Cert.KernelHost

open Cert.KernelIdeal Cert.KernelIdeal.Gen Idealize.ShloMosaic Idealize.ShloMosaic.ValueIdx Idealize.ShloMosaic.StableHlo

/-! ## Operations run one stretch after another -/

/-- The contents after two stretches of operations are the second stretch's, from the first stretch's. -/
theorem after_append {τ : Topo} {sig : RefSig} {Val : EltTy → Type} (l₁ l₂ : List (HloOp τ sig Val)) :
    ∀ V : Valuation τ sig Val, after (l₁ ++ l₂) V = after l₂ (after l₁ V) := by
  induction l₁ with
  | nil => intro V; rfl
  | cons op l ih =>
    intro V
    show after (l ++ l₂) (op.result V) = after l₂ (after l (op.result V))
    exact ih _

variable (m : (ℓ : Loc nD τ sig) → Buf (Elt Ideal) ℓ) (c : Dev nD)

/-! ## The channel words -/

/-- The gathered activations, as the first stretch of host operations leaves them. -/
def takeK : FVec Ideal S2048x1024x4 .f32 :=
  after (hostOps0 (F := Ideal)) (fun b => m (c, b)) (Proc.devRef .tc main_v0)

/-- The channel of every detector of every sample, packed from the gathered activations. -/
def chanK : IVec S2048x1024 32 :=
  Cert.Pack.pack (takeK m c) bcast_S_S2048x1024x4 natLt_1_32 bcast_S_S4 bcast_S4_S1x1x4_2 bcast_S1x1x4_S2048x1024x4_0_1_2
    reducesTo_S2048x1024x4_S2048x1024_d2 h_S_

/-- The packing stretch, from any contents: the channel words of the activations found there. -/
theorem v10_of (W : Valuation τ sig (Elt Ideal)) :
    @Eq (IVec S2048x1024 32) (after (hostOps0_1 (F := Ideal)) W (Proc.devRef .tc main_v10))
      (Cert.Pack.pack (W (Proc.devRef .tc main_v0)) bcast_S_S2048x1024x4 natLt_1_32 bcast_S_S4 bcast_S4_S1x1x4_2
        bcast_S1x1x4_S2048x1024x4_0_1_2 reducesTo_S2048x1024x4_S2048x1024_d2 h_S_) := by
  simp only [hostOps0_1]
  after_results
  rfl

/-- After the gather and the packing the channel buffer holds the channel words. -/
theorem v10_eq :
    @Eq (IVec S2048x1024 32)
      (after (hostOps0_1 (F := Ideal)) (after (hostOps0 (F := Ideal)) (fun b => m (c, b))) (Proc.devRef .tc main_v10))
      (chanK m c) :=
  v10_of (after (hostOps0 (F := Ideal)) (fun b => m (c, b)))

/-! ## The one-hot rows -/

/-- The one-hot rows of a family of channel words, laid end to end: the channel repeated along a new last axis of 16,
    compared with the position along that axis, the outcome read as a number, the 1024 rows of 16 flattened. -/
def onehotK (chan : IVec S2048x1024 32) : FVec Ideal S2048x16384 .bf16 :=
  shapeCast S2048x16384
    (uitofp .bf16
      (cmpi .eq
        (broadcastInDim S2048x1024x16 ![0, 1, 2] bcast_S2048x1024x1_S2048x1024x16_0_1_2
          (broadcastInDim S2048x1024x1 ![0, 1] bcast_S2048x1024_S2048x1024x1_0_1 chan))
        (broadcastInDim S2048x1024x16 ![0, 1, 2] bcast_S1x1x16_S2048x1024x16_0_1_2 (iotaInDim S1x1x16 32 2))))
    shapeCasts_S2048x1024x16_S2048x16384

/-- The one-hot stretch and the flattening, from any contents: the one-hot rows of the channel words found there. -/
theorem v12_of (W : Valuation τ sig (Elt Ideal)) :
    @Eq (FVec Ideal S2048x16384 .bf16)
      (after ((hostOps0_2 (F := Ideal)) ++ (hostOps0_3 (F := Ideal))) W (Proc.devRef .tc main_v12))
      (onehotK (W (Proc.devRef .tc main_v10))) := by
  simp only [hostOps0_2, hostOps0_3, List.cons_append, List.nil_append]
  after_results
  rfl

/-- Entry (p, 16 · i + k) of the one-hot rows: 1 when detector i of sample p has channel k, else 0. -/
theorem onehotK_apply (chan : IVec S2048x1024 32) (p : Fin 2048) (i : Fin 1024) (k : Fin 16)
    (hl : i.val * 16 + k.val < 16384) :
    @Eq EReal ((onehotK chan : S2048x16384.Idx → EReal) (ix2 p ⟨i.val * 16 + k.val, hl⟩))
      (if (chan (ix2 p i)).toNat = k.val then 1 else 0) := by
  unfold onehotK
  rw [Cert.LibRank3.cast_stack_to_flat (by norm_num : 16384 = 1024 * 16) _ shapeCasts_S2048x1024x16_S2048x16384 p i k hl]
  show (((IntOp.cmpi .eq
      (broadcastInDim S2048x1024x16 ![0, 1, 2] bcast_S2048x1024x1_S2048x1024x16_0_1_2
        (broadcastInDim S2048x1024x1 ![0, 1] bcast_S2048x1024_S2048x1024x1_0_1 chan) (ix3 p i k))
      (broadcastInDim S2048x1024x16 ![0, 1, 2] bcast_S1x1x16_S2048x1024x16_0_1_2 (iotaInDim S1x1x16 32 2) (ix3 p i k))).toNat : ℝ) : EReal) = _
  rw [Cert.LibHostStack.bid_ab1_abc_apply, Cert.LibHostStack.bid_ab_ab1_apply, Cert.LibHostStack.bid_11c_abc_apply,
    iotaInDim_apply]
  exact Cert.Spec.onehot_word (chan (ix2 p i)) k.val k.isLt

/-! ## The left operand -/

/-- When the region is entered the left operand's buffer holds the one-hot rows of the channel words. -/
theorem v12_eq : @Eq (FVec Ideal S2048x16384 .bf16) (V m c main_v12) (onehotK (chanK m c)) := by
  show @Eq (FVec Ideal S2048x16384 .bf16)
    (after (List.flatten [hostOps0 (F := Ideal), hostOps0_1, hostOps0_2, hostOps0_3]) (fun b => m (c, b)) (Proc.devRef .tc main_v12)) _
  simp only [List.flatten_cons, List.flatten_nil, List.append_nil]
  rw [after_append, after_append, v12_of, v10_eq]

/-- THE LEFT OPERAND at (p, n): 1 when detector n / 16 of sample p has channel n mod 16, else 0. -/
theorem lhs_apply (p : Fin 2048) (n : Fin 16384) :
    @Eq EReal ((V m c main_v12 : S2048x16384.Idx → EReal) (ix2 p n)) (Cert.Spec.hot (chanK m c) p n) := by
  obtain ⟨i, k, rfl⟩ : ∃ (i : Fin 1024) (k : Fin 16),
      n = ⟨i.val * 16 + k.val, by have := i.isLt; have := k.isLt; omega⟩ :=
    ⟨⟨n.val / 16, by have := n.isLt; omega⟩, ⟨n.val % 16, by omega⟩, Fin.ext (by show n.val = n.val / 16 * 16 + n.val % 16; omega)⟩
  have hi := i.isLt
  have hk := k.isLt
  refine (congrFun (v12_eq m c) (ix2 p ⟨i.val * 16 + k.val, by omega⟩)).trans ?_
  refine (onehotK_apply (chanK m c) p i k (by omega)).trans ?_
  unfold Cert.Spec.hot
  have e1 : ∀ h, (⟨(i.val * 16 + k.val) / 16, h⟩ : Fin 1024) = i := fun h =>
    Fin.ext (by show (i.val * 16 + k.val) / 16 = i.val; omega)
  have e2 : (i.val * 16 + k.val) % 16 = k.val := by omega
  dsimp only
  rw [e1, e2]

end Cert.KernelHost

end
-- ==== Proof.RefRun.lean ====
/- The reference program's @main read back as a straight line: the list of its 69 host operations in order — the 23
   of the call of @_take written at the call's operands and the call's own buffers (among them the one operation of
   @_where, which @_take calls), then the 46 of @main's own text — and the run of that line: every weakly fair
   execution terminates with each buffer at the fold of the operations' results over its launch contents, and no
   operation writes an argument. -/
import proofs.«135660_j81741817577533_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 69 operations, in order. A call executes the callee's body on the operands, so the call of @_take
    stands as the 23 operations of that body, its arguments replaced by the call's operands and each value of the
    body by the buffer the call gives it; the seventh of them is the body of @_where at its own call. -/
abbrev ops : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S1024x4, .i32⟩) (broadcastInDim S1024x4 ![] bcast_S_S1024x4),
    TRef.binary (.of main_arg1 : TRef sig ⟨S1024x4, .i32⟩) (.of main_call0_v0 : TRef sig ⟨S1024x4, .i32⟩) (.of main_call0_v1 : TRef sig ⟨S1024x4, .i1⟩) (cmpi .slt),
    TRef.nullary (.of main_call0_c_0 : TRef sig ⟨S_, .i32⟩) (constantI S_ 32 2048#32),
    TRef.unary (.of main_call0_c_0 : TRef sig ⟨S_, .i32⟩) (.of main_call0_v2 : TRef sig ⟨S1024x4, .i32⟩) (broadcastInDim S1024x4 ![] bcast_S_S1024x4),
    TRef.binary (.of main_arg1 : TRef sig ⟨S1024x4, .i32⟩) (.of main_call0_v2 : TRef sig ⟨S1024x4, .i32⟩) (.of main_call0_v3 : TRef sig ⟨S1024x4, .i32⟩) addi,
    TRef.ternary (.of main_call0_v1 : TRef sig ⟨S1024x4, .i1⟩) (.of main_call0_v3 : TRef sig ⟨S1024x4, .i32⟩) (.of main_arg1 : TRef sig ⟨S1024x4, .i32⟩) (.of main_call0_v4 : TRef sig ⟨S1024x4, .i32⟩) select,
    TRef.unary main_call0_call0.v0 (.of main_call0_v5 : TRef sig ⟨S1024x4x1, .i32⟩) (broadcastInDim S1024x4x1 ![0, 1] bcast_S1024x4_S1024x4x1_0_1),
    TRef.nullary (.of main_call0_c_1 : TRef sig ⟨S1, .i32⟩) (constantI S1 32 2047#32),
    TRef.nullary (.of main_call0_c_2 : TRef sig ⟨S_, .i32⟩) (constantI S_ 32 0#32),
    TRef.unary (.of main_call0_c_2 : TRef sig ⟨S_, .i32⟩) (.of main_call0_v6 : TRef sig ⟨S1024x4x1, .i32⟩) (broadcastInDim S1024x4x1 ![] bcast_S_S1024x4x1),
    TRef.binary (.of main_call0_v5 : TRef sig ⟨S1024x4x1, .i32⟩) (.of main_call0_v6 : TRef sig ⟨S1024x4x1, .i32⟩) (.of main_call0_v7 : TRef sig ⟨S1024x4x1, .i1⟩) (cmpi .sge),
    TRef.unary (.of main_call0_c_1 : TRef sig ⟨S1, .i32⟩) (.of main_call0_v8 : TRef sig ⟨S1x1x1, .i32⟩) (broadcastInDim S1x1x1 ![2] bcast_S1_S1x1x1_2),
    TRef.unary (.of main_call0_v8 : TRef sig ⟨S1x1x1, .i32⟩) (.of main_call0_v9 : TRef sig ⟨S1024x4x1, .i32⟩) (broadcastInDim S1024x4x1 ![0, 1, 2] bcast_S1x1x1_S1024x4x1_0_1_2),
    TRef.binary (.of main_call0_v5 : TRef sig ⟨S1024x4x1, .i32⟩) (.of main_call0_v9 : TRef sig ⟨S1024x4x1, .i32⟩) (.of main_call0_v10 : TRef sig ⟨S1024x4x1, .i1⟩) (cmpi .sle),
    TRef.binary (.of main_call0_v7 : TRef sig ⟨S1024x4x1, .i1⟩) (.of main_call0_v10 : TRef sig ⟨S1024x4x1, .i1⟩) (.of main_call0_v11 : TRef sig ⟨S1024x4x1, .i1⟩) andi,
    TRef.nullary (.of main_call0_c_3 : TRef sig ⟨S_, .i1⟩) (constantI S_ 1 1#1),
    TRef.binary (.of main_call0_v11 : TRef sig ⟨S1024x4x1, .i1⟩) (.of main_call0_c_3 : TRef sig ⟨S_, .i1⟩) (.of main_call0_v12 : TRef sig ⟨S1024x4, .i1⟩) (fun x v => Host.reduce IntOp.andi x v reducesTo_S1024x4x1_S1024x4_d2 h_S_),
    TRef.binary (.of main_arg0 : TRef sig ⟨S2048x2048, .f32⟩) (.of main_call0_v5 : TRef sig ⟨S1024x4x1, .i32⟩) (.of main_call0_v13 : TRef sig ⟨S2048x1024x4, .f32⟩) (fun x i => Host.gather gather_S2048x2048_S1024x4x1_S2048x1024x4_0_1_n_n_1_2_20481 x i),
    TRef.unary (.of main_call0_v12 : TRef sig ⟨S1024x4, .i1⟩) (.of main_call0_v14 : TRef sig ⟨S2048x1024x4, .i1⟩) (broadcastInDim S2048x1024x4 ![1, 2] bcast_S1024x4_S2048x1024x4_1_2),
    TRef.nullary (.of main_call0_cst : TRef sig ⟨S_, .f32⟩) (constant S_ .f32 0x7FC00000#32),
    TRef.unary (.of main_call0_cst : TRef sig ⟨S_, .f32⟩) (.of main_call0_v15 : TRef sig ⟨S2048x1024x4, .f32⟩) (broadcastInDim S2048x1024x4 ![] bcast_S_S2048x1024x4),
    TRef.ternary (.of main_call0_v14 : TRef sig ⟨S2048x1024x4, .i1⟩) (.of main_call0_v13 : TRef sig ⟨S2048x1024x4, .f32⟩) (.of main_call0_v15 : TRef sig ⟨S2048x1024x4, .f32⟩) (.of main_v0 : TRef sig ⟨S2048x1024x4, .f32⟩) select,
    nullary main_cst (constant S_ .f32 0x00000000#32),
    unary main_cst main_v1 (broadcastInDim S2048x1024x4 ![] bcast_S_S2048x1024x4 : (⟨S_, .f32⟩ : BufTy).Contents (Elt F) → (⟨S2048x1024x4, .f32⟩ : BufTy).Contents (Elt F)),
    binary main_v0 main_v1 main_v2 (cmpf .ogt : (⟨S2048x1024x4, .f32⟩ : BufTy).Contents (Elt F) → (⟨S2048x1024x4, .f32⟩ : BufTy).Contents (Elt F) → (⟨S2048x1024x4, .i1⟩ : BufTy).Contents (Elt F)),
    unary main_v2 main_v3 ((extui 32 · natLt_1_32) : (⟨S2048x1024x4, .i1⟩ : BufTy).Contents (Elt F) → (⟨S2048x1024x4, .i32⟩ : BufTy).Contents (Elt F)),
    nullary main_v4 (iotaInDim S4 32 0),
    nullary main_c (constantI S_ 32 1#32),
    unary main_c main_v5 (broadcastInDim S4 ![] bcast_S_S4 : (⟨S_, .i32⟩ : BufTy).Contents (Elt F) → (⟨S4, .i32⟩ : BufTy).Contents (Elt F)),
    binary main_v5 main_v4 main_v6 (Host.shli : (⟨S4, .i32⟩ : BufTy).Contents (Elt F) → (⟨S4, .i32⟩ : BufTy).Contents (Elt F) → (⟨S4, .i32⟩ : BufTy).Contents (Elt F)),
    unary main_v6 main_v7 (broadcastInDim S1x1x4 ![2] bcast_S4_S1x1x4_2 : (⟨S4, .i32⟩ : BufTy).Contents (Elt F) → (⟨S1x1x4, .i32⟩ : BufTy).Contents (Elt F)),
    unary main_v7 main_v8 (broadcastInDim S2048x1024x4 ![0, 1, 2] bcast_S1x1x4_S2048x1024x4_0_1_2 : (⟨S1x1x4, .i32⟩ : BufTy).Contents (Elt F) → (⟨S2048x1024x4, .i32⟩ : BufTy).Contents (Elt F)),
    binary main_v3 main_v8 main_v9 (muli : (⟨S2048x1024x4, .i32⟩ : BufTy).Contents (Elt F) → (⟨S2048x1024x4, .i32⟩ : BufTy).Contents (Elt F) → (⟨S2048x1024x4, .i32⟩ : BufTy).Contents (Elt F)),
    nullary main_c_0 (constantI S_ 32 0#32),
    binary main_v9 main_c_0 main_v10 ((fun x v => Host.reduce IntOp.addi x v reducesTo_S2048x1024x4_S2048x1024_d2 h_S_) : (⟨S2048x1024x4, .i32⟩ : BufTy).Contents (Elt F) → (⟨S_, .i32⟩ : BufTy).Contents (Elt F) → (⟨S2048x1024, .i32⟩ : BufTy).Contents (Elt F)),
    nullary main_v11 (iotaInDim S1024 32 0),
    unary main_v11 main_v12 (broadcastInDim S1x1024 ![1] bcast_S1024_S1x1024_1 : (⟨S1024, .i32⟩ : BufTy).Contents (Elt F) → (⟨S1x1024, .i32⟩ : BufTy).Contents (Elt F)),
    nullary main_c_1 (constantI S_ 32 16#32),
    unary main_c_1 main_v13 (broadcastInDim S1x1024 ![] bcast_S_S1x1024 : (⟨S_, .i32⟩ : BufTy).Contents (Elt F) → (⟨S1x1024, .i32⟩ : BufTy).Contents (Elt F)),
    binary main_v12 main_v13 main_v14 (muli : (⟨S1x1024, .i32⟩ : BufTy).Contents (Elt F) → (⟨S1x1024, .i32⟩ : BufTy).Contents (Elt F) → (⟨S1x1024, .i32⟩ : BufTy).Contents (Elt F)),
    unary main_v14 main_v15 (broadcastInDim S2048x1024 ![0, 1] bcast_S1x1024_S2048x1024_0_1 : (⟨S1x1024, .i32⟩ : BufTy).Contents (Elt F) → (⟨S2048x1024, .i32⟩ : BufTy).Contents (Elt F)),
    binary main_v15 main_v10 main_v16 (addi : (⟨S2048x1024, .i32⟩ : BufTy).Contents (Elt F) → (⟨S2048x1024, .i32⟩ : BufTy).Contents (Elt F) → (⟨S2048x1024, .i32⟩ : BufTy).Contents (Elt F)),
    nullary main_cst_2 (constant S_ .f32 0x00000000#32),
    unary main_cst_2 main_v17 (broadcastInDim S2048x16384 ![] bcast_S_S2048x16384 : (⟨S_, .f32⟩ : BufTy).Contents (Elt F) → (⟨S2048x16384, .f32⟩ : BufTy).Contents (Elt F)),
    nullary main_v18 (iotaInDim S2048 32 0),
    unary main_v18 main_v19 (broadcastInDim S2048x1 ![0] bcast_S2048_S2048x1_0 : (⟨S2048, .i32⟩ : BufTy).Contents (Elt F) → (⟨S2048x1, .i32⟩ : BufTy).Contents (Elt F)),
    nullary main_c_3 (constantI S_ 32 0#32),
    unary main_c_3 main_v20 (broadcastInDim S2048x1 ![] bcast_S_S2048x1 : (⟨S_, .i32⟩ : BufTy).Contents (Elt F) → (⟨S2048x1, .i32⟩ : BufTy).Contents (Elt F)),
    binary main_v19 main_v20 main_v21 (cmpi .slt : (⟨S2048x1, .i32⟩ : BufTy).Contents (Elt F) → (⟨S2048x1, .i32⟩ : BufTy).Contents (Elt F) → (⟨S2048x1, .i1⟩ : BufTy).Contents (Elt F)),
    nullary main_c_4 (constantI S_ 32 2048#32),
    unary main_c_4 main_v22 (broadcastInDim S2048x1 ![] bcast_S_S2048x1 : (⟨S_, .i32⟩ : BufTy).Contents (Elt F) → (⟨S2048x1, .i32⟩ : BufTy).Contents (Elt F)),
    binary main_v19 main_v22 main_v23 (addi : (⟨S2048x1, .i32⟩ : BufTy).Contents (Elt F) → (⟨S2048x1, .i32⟩ : BufTy).Contents (Elt F) → (⟨S2048x1, .i32⟩ : BufTy).Contents (Elt F)),
    ternary main_v21 main_v23 main_v19 main_v24 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    nullary main_c_5 (constantI S_ 32 0#32),
    unary main_c_5 main_v25 (broadcastInDim S2048x1024 ![] bcast_S_S2048x1024 : (⟨S_, .i32⟩ : BufTy).Contents (Elt F) → (⟨S2048x1024, .i32⟩ : BufTy).Contents (Elt F)),
    binary main_v16 main_v25 main_v26 (cmpi .slt : (⟨S2048x1024, .i32⟩ : BufTy).Contents (Elt F) → (⟨S2048x1024, .i32⟩ : BufTy).Contents (Elt F) → (⟨S2048x1024, .i1⟩ : BufTy).Contents (Elt F)),
    nullary main_c_6 (constantI S_ 32 16384#32),
    unary main_c_6 main_v27 (broadcastInDim S2048x1024 ![] bcast_S_S2048x1024 : (⟨S_, .i32⟩ : BufTy).Contents (Elt F) → (⟨S2048x1024, .i32⟩ : BufTy).Contents (Elt F)),
    binary main_v16 main_v27 main_v28 (addi : (⟨S2048x1024, .i32⟩ : BufTy).Contents (Elt F) → (⟨S2048x1024, .i32⟩ : BufTy).Contents (Elt F) → (⟨S2048x1024, .i32⟩ : BufTy).Contents (Elt F)),
    ternary main_v26 main_v28 main_v16 main_v29 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    unary main_v24 main_v30 (broadcastInDim S2048x1024 ![0, 1] bcast_S2048x1_S2048x1024_0_1 : (⟨S2048x1, .i32⟩ : BufTy).Contents (Elt F) → (⟨S2048x1024, .i32⟩ : BufTy).Contents (Elt F)),
    unary main_v30 main_v31 (broadcastInDim S2048x1024x1 ![0, 1] bcast_S2048x1024_S2048x1024x1_0_1 : (⟨S2048x1024, .i32⟩ : BufTy).Contents (Elt F) → (⟨S2048x1024x1, .i32⟩ : BufTy).Contents (Elt F)),
    unary main_v29 main_v32 (broadcastInDim S2048x1024x1 ![0, 1] bcast_S2048x1024_S2048x1024x1_0_1 : (⟨S2048x1024, .i32⟩ : BufTy).Contents (Elt F) → (⟨S2048x1024x1, .i32⟩ : BufTy).Contents (Elt F)),
    binary main_v31 main_v32 main_v33 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    nullary main_cst_7 (constant S_ .f32 0x3F800000#32),
    unary main_cst_7 main_v34 (broadcastInDim S2048x1024 ![] bcast_S_S2048x1024 : (⟨S_, .f32⟩ : BufTy).Contents (Elt F) → (⟨S2048x1024, .f32⟩ : BufTy).Contents (Elt F)),
    ternary main_v17 main_v33 main_v34 main_v35 ((fun x i u => Host.scatterAdd scatter_S2048x16384_S2048x1024x2_S2048x1024_n_01_01_2 x i u) : (⟨S2048x16384, .f32⟩ : BufTy).Contents (Elt F) → (⟨S2048x1024x2, .i32⟩ : BufTy).Contents (Elt F) → (⟨S2048x1024, .f32⟩ : BufTy).Contents (Elt F) → (⟨S2048x16384, .f32⟩ : BufTy).Contents (Elt F)),
    binary main_v35 main_arg2 main_v36 ((fun l r => Host.dotGeneral dot_S2048x16384_S16384x2048_S2048x2048_1_0_0_1_n_n none l r) : (⟨S2048x16384, .f32⟩ : BufTy).Contents (Elt F) → (⟨S16384x2048, .f32⟩ : BufTy).Contents (Elt F) → (⟨S2048x2048, .f32⟩ : BufTy).Contents (Elt F)) ]

-- the two sides are one chain of single operations: unfolding a call's body and pushing the sequencing inward
-- is one step of the free monad's bind per operation
set_option maxRecDepth 4096 in
/-- @main is that straight line: the two functions' definitions unfolded at their calls and the sequencing
    re-associated, both sides are the same chain of single operations ending in the return — by computation,
    bind on a program being defined by recursion on it. -/
theorem main_eq (c : Dev nD) : main (F := F) c = seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., unary_bufs_sub .., nullary_bufs_sub .., nullary_bufs_sub .., unary_bufs_sub ..,
    binary_bufs_sub .., unary_bufs_sub .., unary_bufs_sub .., binary_bufs_sub .., nullary_bufs_sub .., binary_bufs_sub ..,
    nullary_bufs_sub .., unary_bufs_sub .., nullary_bufs_sub .., unary_bufs_sub .., binary_bufs_sub .., unary_bufs_sub ..,
    binary_bufs_sub .., nullary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., nullary_bufs_sub ..,
    unary_bufs_sub .., ternary_bufs_sub .., binary_bufs_sub ..⟩

/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation of the line writes `main_arg0`: each writes its one result buffer, a different reference. -/
theorem arg0_eq (V : Valuation τ sig (Elt F)) :
    after ops V (main_arg0 : DevRef τ sig) = V (main_arg0 : DevRef τ sig) :=
  after_of_forall_not_mem (b := Proc.devRef .tc main_arg0) _ _ (List.forall_iff_forall_mem.mp (by
    simp only [List.Forall, nullary_writes, unary_writes, binary_writes, ternary_writes, Finset.mem_singleton]
    repeat' apply And.intro
    all_goals exact devRef_ne_of_ne (by decide)))

/-- No operation of the line writes `main_arg1`: each writes its one result buffer, a different reference. -/
theorem arg1_eq (V : Valuation τ sig (Elt F)) :
    after ops V (main_arg1 : DevRef τ sig) = V (main_arg1 : DevRef τ sig) :=
  after_of_forall_not_mem (b := Proc.devRef .tc main_arg1) _ _ (List.forall_iff_forall_mem.mp (by
    simp only [List.Forall, nullary_writes, unary_writes, binary_writes, ternary_writes, Finset.mem_singleton]
    repeat' apply And.intro
    all_goals exact devRef_ne_of_ne (by decide)))

/-- No operation of the line writes `main_arg2`: each writes its one result buffer, a different reference. -/
theorem arg2_eq (V : Valuation τ sig (Elt F)) :
    after ops V (main_arg2 : DevRef τ sig) = V (main_arg2 : DevRef τ sig) :=
  after_of_forall_not_mem (b := Proc.devRef .tc main_arg2) _ _ (List.forall_iff_forall_mem.mp (by
    simp only [List.Forall, nullary_writes, unary_writes, binary_writes, ternary_writes, Finset.mem_singleton]
    repeat' apply And.intro
    all_goals exact devRef_ne_of_ne (by decide)))

end Cert.ReferenceIdeal.RefRun

end
-- ==== Proof.LibPairScatter.lean ====
/-
  The host's accumulating scatter whose index array holds one (row, column) pair per update. Independent of any
  program.

  The operand is a matrix [A, N]; the updates are a matrix [B, D] of numbers; the index array [B, D, 2] holds, for the
  update (r, i), the pair of words (row, column) it is added at. Both operand axes are named by the pair and no axis
  is a window axis, so an update touches exactly one entry: the one whose row and column are the two words read as
  signed integers. A pair outside the matrix adds nothing.

  So at the extended reals the result at (p, q) is the operand's entry plus the sum of those updates whose pair is
  (p, q).
-/
import Idealize.ShloMosaic.Lib.ValueIdx
import Idealize.ShloMosaic.Lib.Pipeline.Value
import Idealize.ShloMosaic.PureOps.Ideal.Laws

noncomputable section

namespace Cert.LibPairScatter

open Idealize.ShloMosaic Idealize.ShloMosaic.ValueIdx

/-- The dimension numbers of a scatter of [B, D] updates into [A, N] by (row, column) pairs [B, D, 2]. -/
abbrev pairScatter (A N B D : Nat)
    (wf : ScatterDims.WF ⟨2, ![A, N]⟩ ⟨3, ![B, D, 2]⟩ ⟨2, ![B, D]⟩ [] [0, 1] [0, 1] 2) :
    ScatterDims ⟨2, ![A, N]⟩ ⟨3, ![B, D, 2]⟩ ⟨2, ![B, D]⟩ where
  updateWindowDims := []
  insertedWindowDims := [0, 1]
  scatterDimsToOperandDims := [0, 1]
  indexVectorDim := 2
  wf := wf

variable {A N B D w : Nat} (wf : ScatterDims.WF ⟨2, ![A, N]⟩ ⟨3, ![B, D, 2]⟩ ⟨2, ![B, D]⟩ [] [0, 1] [0, 1] 2)

/-- No operand axis is a window axis. -/
theorem sKept_eq : (pairScatter A N B D wf).sKept = [] := rfl

/-- So an update's window coordinate is 0 on both axes. -/
theorem window_eq (j : (⟨2, ![B, D]⟩ : Shape).Idx) (a : Fin 2) : (pairScatter A N B D wf).window j a = 0 := by
  unfold ScatterDims.window
  rw [dif_neg]
  rw [sKept_eq]
  exact List.not_mem_nil

/-- Component c of update (r, i)'s pair is read at (r, i, c). -/
theorem siIdx_eq (r : Fin B) (i : Fin D) (c : Fin 2) (hc : c.val < (pairScatter A N B D wf).scatterDimsToOperandDims.length) :
    (pairScatter A N B D wf).siIdx (ix2 r i) ⟨c.val, hc⟩ = ix3 r i c := by
  funext b
  apply Fin.ext
  match b with
  | ⟨0, _⟩ => rfl
  | ⟨1, _⟩ => rfl
  | ⟨2, _⟩ => rfl

/-- The start on operand axis a is the pair's word a, read signed. -/
theorem start_eq (r : Fin B) (i : Fin D) (idx : IVec ⟨3, ![B, D, 2]⟩ w) (a : Fin 2) :
    (pairScatter A N B D wf).start (ix2 r i) idx a = (idx (ix3 r i a)).toInt := by
  unfold ScatterDims.start
  match a with
  | ⟨0, h0⟩ =>
    have hm : (⟨0, h0⟩ : Fin 2) ∈ (pairScatter A N B D wf).scatterDimsToOperandDims :=
      (show (0 : Fin 2) ∈ ([0, 1] : List (Fin 2)) by decide)
    rw [dif_pos hm]
    exact congrArg (fun k => (idx k).toInt) (siIdx_eq wf r i 0 _)
  | ⟨1, h1⟩ =>
    have hm : (⟨1, h1⟩ : Fin 2) ∈ (pairScatter A N B D wf).scatterDimsToOperandDims :=
      (show (1 : Fin 2) ∈ ([0, 1] : List (Fin 2)) by decide)
    rw [dif_pos hm]
    exact congrArg (fun k => (idx k).toInt) (siIdx_eq wf r i 1 _)

/-- The update (r, i) lands at (p, q) exactly when its two index words, read signed, are p and q. -/
theorem resultIdx_eq_some_iff (r : Fin B) (i : Fin D) (idx : IVec ⟨3, ![B, D, 2]⟩ w) (p : Fin A) (q : Fin N) :
    (pairScatter A N B D wf).resultIdx? (ix2 r i) idx = some (ix2 p q)
      ↔ (idx (ix3 r i (0 : Fin 2))).toInt = (p.val : Int) ∧ (idx (ix3 r i (1 : Fin 2))).toInt = (q.val : Int) := by
  unfold ScatterDims.resultIdx?
  simp only [start_eq, window_eq]
  constructor
  · intro h
    split at h
    · rename_i hb
      have e := Option.some.inj h
      have e0 := congrArg (fun k : (⟨2, ![A, N]⟩ : Shape).Idx => (k 0).val) e
      have e1 := congrArg (fun k : (⟨2, ![A, N]⟩ : Shape).Idx => (k 1).val) e
      have b0 := hb 0
      have b1 := hb 1
      simp only at e0 e1
      constructor
      · show (idx (ix3 r i (0 : Fin 2))).toInt = _
        change ((idx (ix3 r i (0 : Fin 2))).toInt + ((0 : Nat) : Int)).toNat = p.val at e0
        omega
      · change ((idx (ix3 r i (1 : Fin 2))).toInt + ((0 : Nat) : Int)).toNat = q.val at e1
        omega
    · exact absurd h (by simp)
  · rintro ⟨h0, h1⟩
    have hp := p.isLt
    have hq := q.isLt
    rw [dif_pos]
    · refine congrArg some (funext fun a => Fin.ext ?_)
      match a with
      | ⟨0, _⟩ => show ((idx (ix3 r i (0 : Fin 2))).toInt + ((0 : Nat) : Int)).toNat = p.val; omega
      | ⟨1, _⟩ => show ((idx (ix3 r i (1 : Fin 2))).toInt + ((0 : Nat) : Int)).toNat = q.val; omega
    · intro a
      match a with
      | ⟨0, _⟩ => show 0 ≤ (idx (ix3 r i (0 : Fin 2))).toInt + ((0 : Nat) : Int) ∧ (idx (ix3 r i (0 : Fin 2))).toInt + ((0 : Nat) : Int) < (A : Int); omega
      | ⟨1, _⟩ => show 0 ≤ (idx (ix3 r i (1 : Fin 2))).toInt + ((0 : Nat) : Int) ∧ (idx (ix3 r i (1 : Fin 2))).toInt + ((0 : Nat) : Int) < (N : Int); omega

/-- THE SCATTER AT AN ENTRY: the operand's entry plus the sum of the updates whose pair of words is (p, q). -/
theorem scatterAdd_pair_apply {φ : FTy} (x : FVec Ideal ⟨2, ![A, N]⟩ φ) (idx : IVec ⟨3, ![B, D, 2]⟩ w)
    (upd : FVec Ideal ⟨2, ![B, D]⟩ φ) (p : Fin A) (q : Fin N) :
    Host.scatterAdd (pairScatter A N B D wf) x idx upd (ix2 p q)
      = x (ix2 p q) + ∑ j ∈ Finset.univ.filter (fun j : (⟨2, ![B, D]⟩ : Shape).Idx =>
          (idx (ix3 (j 0) (j 1) (0 : Fin 2))).toInt = (p.val : Int) ∧ (idx (ix3 (j 0) (j 1) (1 : Fin 2))).toInt = (q.val : Int)), upd j := by
  show Ideal.hostScatterAdd (pairScatter A N B D wf) x idx upd (ix2 p q) = _
  unfold Ideal.hostScatterAdd
  refine congrArg (fun S : Finset (⟨2, ![B, D]⟩ : Shape).Idx => x (ix2 p q) + ∑ j ∈ S, upd j) ?_
  refine Finset.filter_congr fun j _ => ?_
  have hj : (pairScatter A N B D wf).resultIdx? j idx = (pairScatter A N B D wf).resultIdx? (ix2 (j 0) (j 1)) idx :=
    congrArg (fun k => (pairScatter A N B D wf).resultIdx? k idx) (eq_ix2 j)
  rw [hj]
  exact resultIdx_eq_some_iff wf (j 0) (j 1) idx p q

end Cert.LibPairScatter
end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.RefValue.lean ====
/- The reference program's result, read at an output entry. The first 23 operations gather the activations; the next
   thirteen threshold them and pack each detector's four bits into its channel word; the rest form, for every
   (sample, detector) pair, the pair of index words (sample, 16·detector + channel), add a one at that entry of a zero
   matrix, and multiply the matrix of counts with the weights. At the extended reals the count at (p, n) is one or
   none, so the result at (p, q) is the sum over n of that indicator times the weight at (n, q). -/
import proofs.«135660_j81741817577533_1_alg».proof.Proof.RefRun
import proofs.«135660_j81741817577533_1_alg».proof.Proof.Spec
import proofs.«135660_j81741817577533_1_alg».proof.Proof.Pack
import proofs.«135660_j81741817577533_1_alg».proof.Proof.LibHostStack
import proofs.«135660_j81741817577533_1_alg».proof.Proof.LibPairScatter
import proofs.«135660_j81741817577533_1_alg».proof.Proof.LibColumn
import proofs.«135660_j81741817577533_1_alg».proof.Proof.LibPlainDot
import Idealize.ShloMosaic.Lib.IdealHost
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.TcCoe
  Idealize.ShloMosaic.ValueIdx Idealize.SL.Sem Idealize.ShloMosaic.StableHlo

/-- A line run after another is the two folds composed. -/
theorem after_append {τ : Topo} {sig : RefSig} {Val : EltTy → Type} (l₁ l₂ : List (HloOp τ sig Val)) (W : Valuation τ sig Val) :
    after (l₁ ++ l₂) W = after l₂ (after l₁ W) := by
  induction l₁ generalizing W with
  | nil => rfl
  | cons op l ih => exact ih (op.result W)

section Lists

variable {F : FTy → Type} [FloatOps F]

/-- The gather: the first 23 operations of the line, for any float values. -/
def takeOpsG : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S1024x4, .i32⟩) (broadcastInDim S1024x4 ![] bcast_S_S1024x4),
    TRef.binary (.of main_arg1 : TRef sig ⟨S1024x4, .i32⟩) (.of main_call0_v0 : TRef sig ⟨S1024x4, .i32⟩) (.of main_call0_v1 : TRef sig ⟨S1024x4, .i1⟩) (cmpi .slt),
    TRef.nullary (.of main_call0_c_0 : TRef sig ⟨S_, .i32⟩) (constantI S_ 32 2048#32),
    TRef.unary (.of main_call0_c_0 : TRef sig ⟨S_, .i32⟩) (.of main_call0_v2 : TRef sig ⟨S1024x4, .i32⟩) (broadcastInDim S1024x4 ![] bcast_S_S1024x4),
    TRef.binary (.of main_arg1 : TRef sig ⟨S1024x4, .i32⟩) (.of main_call0_v2 : TRef sig ⟨S1024x4, .i32⟩) (.of main_call0_v3 : TRef sig ⟨S1024x4, .i32⟩) addi,
    TRef.ternary (.of main_call0_v1 : TRef sig ⟨S1024x4, .i1⟩) (.of main_call0_v3 : TRef sig ⟨S1024x4, .i32⟩) (.of main_arg1 : TRef sig ⟨S1024x4, .i32⟩) (.of main_call0_v4 : TRef sig ⟨S1024x4, .i32⟩) select,
    TRef.unary main_call0_call0.v0 (.of main_call0_v5 : TRef sig ⟨S1024x4x1, .i32⟩) (broadcastInDim S1024x4x1 ![0, 1] bcast_S1024x4_S1024x4x1_0_1),
    TRef.nullary (.of main_call0_c_1 : TRef sig ⟨S1, .i32⟩) (constantI S1 32 2047#32),
    TRef.nullary (.of main_call0_c_2 : TRef sig ⟨S_, .i32⟩) (constantI S_ 32 0#32),
    TRef.unary (.of main_call0_c_2 : TRef sig ⟨S_, .i32⟩) (.of main_call0_v6 : TRef sig ⟨S1024x4x1, .i32⟩) (broadcastInDim S1024x4x1 ![] bcast_S_S1024x4x1),
    TRef.binary (.of main_call0_v5 : TRef sig ⟨S1024x4x1, .i32⟩) (.of main_call0_v6 : TRef sig ⟨S1024x4x1, .i32⟩) (.of main_call0_v7 : TRef sig ⟨S1024x4x1, .i1⟩) (cmpi .sge),
    TRef.unary (.of main_call0_c_1 : TRef sig ⟨S1, .i32⟩) (.of main_call0_v8 : TRef sig ⟨S1x1x1, .i32⟩) (broadcastInDim S1x1x1 ![2] bcast_S1_S1x1x1_2),
    TRef.unary (.of main_call0_v8 : TRef sig ⟨S1x1x1, .i32⟩) (.of main_call0_v9 : TRef sig ⟨S1024x4x1, .i32⟩) (broadcastInDim S1024x4x1 ![0, 1, 2] bcast_S1x1x1_S1024x4x1_0_1_2),
    TRef.binary (.of main_call0_v5 : TRef sig ⟨S1024x4x1, .i32⟩) (.of main_call0_v9 : TRef sig ⟨S1024x4x1, .i32⟩) (.of main_call0_v10 : TRef sig ⟨S1024x4x1, .i1⟩) (cmpi .sle),
    TRef.binary (.of main_call0_v7 : TRef sig ⟨S1024x4x1, .i1⟩) (.of main_call0_v10 : TRef sig ⟨S1024x4x1, .i1⟩) (.of main_call0_v11 : TRef sig ⟨S1024x4x1, .i1⟩) andi,
    TRef.nullary (.of main_call0_c_3 : TRef sig ⟨S_, .i1⟩) (constantI S_ 1 1#1),
    TRef.binary (.of main_call0_v11 : TRef sig ⟨S1024x4x1, .i1⟩) (.of main_call0_c_3 : TRef sig ⟨S_, .i1⟩) (.of main_call0_v12 : TRef sig ⟨S1024x4, .i1⟩) (fun x v => Host.reduce IntOp.andi x v reducesTo_S1024x4x1_S1024x4_d2 h_S_),
    TRef.binary (.of main_arg0 : TRef sig ⟨S2048x2048, .f32⟩) (.of main_call0_v5 : TRef sig ⟨S1024x4x1, .i32⟩) (.of main_call0_v13 : TRef sig ⟨S2048x1024x4, .f32⟩) (fun x i => Host.gather gather_S2048x2048_S1024x4x1_S2048x1024x4_0_1_n_n_1_2_20481 x i),
    TRef.unary (.of main_call0_v12 : TRef sig ⟨S1024x4, .i1⟩) (.of main_call0_v14 : TRef sig ⟨S2048x1024x4, .i1⟩) (broadcastInDim S2048x1024x4 ![1, 2] bcast_S1024x4_S2048x1024x4_1_2),
    TRef.nullary (.of main_call0_cst : TRef sig ⟨S_, .f32⟩) (constant S_ .f32 0x7FC00000#32),
    TRef.unary (.of main_call0_cst : TRef sig ⟨S_, .f32⟩) (.of main_call0_v15 : TRef sig ⟨S2048x1024x4, .f32⟩) (broadcastInDim S2048x1024x4 ![] bcast_S_S2048x1024x4),
    TRef.ternary (.of main_call0_v14 : TRef sig ⟨S2048x1024x4, .i1⟩) (.of main_call0_v13 : TRef sig ⟨S2048x1024x4, .f32⟩) (.of main_call0_v15 : TRef sig ⟨S2048x1024x4, .f32⟩) (.of main_v0 : TRef sig ⟨S2048x1024x4, .f32⟩) select ]

/-- The rest of the line up to the two columns of index words: 41 operations, for any float values. -/
abbrev restAG : List (HloOp τ sig (Elt F)) :=
  [ nullary main_cst (constant S_ .f32 0x00000000#32),
    unary main_cst main_v1 (broadcastInDim S2048x1024x4 ![] bcast_S_S2048x1024x4 : (⟨S_, .f32⟩ : BufTy).Contents (Elt F) → (⟨S2048x1024x4, .f32⟩ : BufTy).Contents (Elt F)),
    binary main_v0 main_v1 main_v2 (cmpf .ogt : (⟨S2048x1024x4, .f32⟩ : BufTy).Contents (Elt F) → (⟨S2048x1024x4, .f32⟩ : BufTy).Contents (Elt F) → (⟨S2048x1024x4, .i1⟩ : BufTy).Contents (Elt F)),
    unary main_v2 main_v3 ((extui 32 · natLt_1_32) : (⟨S2048x1024x4, .i1⟩ : BufTy).Contents (Elt F) → (⟨S2048x1024x4, .i32⟩ : BufTy).Contents (Elt F)),
    nullary main_v4 (iotaInDim S4 32 0),
    nullary main_c (constantI S_ 32 1#32),
    unary main_c main_v5 (broadcastInDim S4 ![] bcast_S_S4 : (⟨S_, .i32⟩ : BufTy).Contents (Elt F) → (⟨S4, .i32⟩ : BufTy).Contents (Elt F)),
    binary main_v5 main_v4 main_v6 (Host.shli : (⟨S4, .i32⟩ : BufTy).Contents (Elt F) → (⟨S4, .i32⟩ : BufTy).Contents (Elt F) → (⟨S4, .i32⟩ : BufTy).Contents (Elt F)),
    unary main_v6 main_v7 (broadcastInDim S1x1x4 ![2] bcast_S4_S1x1x4_2 : (⟨S4, .i32⟩ : BufTy).Contents (Elt F) → (⟨S1x1x4, .i32⟩ : BufTy).Contents (Elt F)),
    unary main_v7 main_v8 (broadcastInDim S2048x1024x4 ![0, 1, 2] bcast_S1x1x4_S2048x1024x4_0_1_2 : (⟨S1x1x4, .i32⟩ : BufTy).Contents (Elt F) → (⟨S2048x1024x4, .i32⟩ : BufTy).Contents (Elt F)),
    binary main_v3 main_v8 main_v9 (muli : (⟨S2048x1024x4, .i32⟩ : BufTy).Contents (Elt F) → (⟨S2048x1024x4, .i32⟩ : BufTy).Contents (Elt F) → (⟨S2048x1024x4, .i32⟩ : BufTy).Contents (Elt F)),
    nullary main_c_0 (constantI S_ 32 0#32),
    binary main_v9 main_c_0 main_v10 ((fun x v => Host.reduce IntOp.addi x v reducesTo_S2048x1024x4_S2048x1024_d2 h_S_) : (⟨S2048x1024x4, .i32⟩ : BufTy).Contents (Elt F) → (⟨S_, .i32⟩ : BufTy).Contents (Elt F) → (⟨S2048x1024, .i32⟩ : BufTy).Contents (Elt F)),
    nullary main_v11 (iotaInDim S1024 32 0),
    unary main_v11 main_v12 (broadcastInDim S1x1024 ![1] bcast_S1024_S1x1024_1 : (⟨S1024, .i32⟩ : BufTy).Contents (Elt F) → (⟨S1x1024, .i32⟩ : BufTy).Contents (Elt F)),
    nullary main_c_1 (constantI S_ 32 16#32),
    unary main_c_1 main_v13 (broadcastInDim S1x1024 ![] bcast_S_S1x1024 : (⟨S_, .i32⟩ : BufTy).Contents (Elt F) → (⟨S1x1024, .i32⟩ : BufTy).Contents (Elt F)),
    binary main_v12 main_v13 main_v14 (muli : (⟨S1x1024, .i32⟩ : BufTy).Contents (Elt F) → (⟨S1x1024, .i32⟩ : BufTy).Contents (Elt F) → (⟨S1x1024, .i32⟩ : BufTy).Contents (Elt F)),
    unary main_v14 main_v15 (broadcastInDim S2048x1024 ![0, 1] bcast_S1x1024_S2048x1024_0_1 : (⟨S1x1024, .i32⟩ : BufTy).Contents (Elt F) → (⟨S2048x1024, .i32⟩ : BufTy).Contents (Elt F)),
    binary main_v15 main_v10 main_v16 (addi : (⟨S2048x1024, .i32⟩ : BufTy).Contents (Elt F) → (⟨S2048x1024, .i32⟩ : BufTy).Contents (Elt F) → (⟨S2048x1024, .i32⟩ : BufTy).Contents (Elt F)),
    nullary main_cst_2 (constant S_ .f32 0x00000000#32),
    unary main_cst_2 main_v17 (broadcastInDim S2048x16384 ![] bcast_S_S2048x16384 : (⟨S_, .f32⟩ : BufTy).Contents (Elt F) → (⟨S2048x16384, .f32⟩ : BufTy).Contents (Elt F)),
    nullary main_v18 (iotaInDim S2048 32 0),
    unary main_v18 main_v19 (broadcastInDim S2048x1 ![0] bcast_S2048_S2048x1_0 : (⟨S2048, .i32⟩ : BufTy).Contents (Elt F) → (⟨S2048x1, .i32⟩ : BufTy).Contents (Elt F)),
    nullary main_c_3 (constantI S_ 32 0#32),
    unary main_c_3 main_v20 (broadcastInDim S2048x1 ![] bcast_S_S2048x1 : (⟨S_, .i32⟩ : BufTy).Contents (Elt F) → (⟨S2048x1, .i32⟩ : BufTy).Contents (Elt F)),
    binary main_v19 main_v20 main_v21 (cmpi .slt : (⟨S2048x1, .i32⟩ : BufTy).Contents (Elt F) → (⟨S2048x1, .i32⟩ : BufTy).Contents (Elt F) → (⟨S2048x1, .i1⟩ : BufTy).Contents (Elt F)),
    nullary main_c_4 (constantI S_ 32 2048#32),
    unary main_c_4 main_v22 (broadcastInDim S2048x1 ![] bcast_S_S2048x1 : (⟨S_, .i32⟩ : BufTy).Contents (Elt F) → (⟨S2048x1, .i32⟩ : BufTy).Contents (Elt F)),
    binary main_v19 main_v22 main_v23 (addi : (⟨S2048x1, .i32⟩ : BufTy).Contents (Elt F) → (⟨S2048x1, .i32⟩ : BufTy).Contents (Elt F) → (⟨S2048x1, .i32⟩ : BufTy).Contents (Elt F)),
    ternary main_v21 main_v23 main_v19 main_v24 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    nullary main_c_5 (constantI S_ 32 0#32),
    unary main_c_5 main_v25 (broadcastInDim S2048x1024 ![] bcast_S_S2048x1024 : (⟨S_, .i32⟩ : BufTy).Contents (Elt F) → (⟨S2048x1024, .i32⟩ : BufTy).Contents (Elt F)),
    binary main_v16 main_v25 main_v26 (cmpi .slt : (⟨S2048x1024, .i32⟩ : BufTy).Contents (Elt F) → (⟨S2048x1024, .i32⟩ : BufTy).Contents (Elt F) → (⟨S2048x1024, .i1⟩ : BufTy).Contents (Elt F)),
    nullary main_c_6 (constantI S_ 32 16384#32),
    unary main_c_6 main_v27 (broadcastInDim S2048x1024 ![] bcast_S_S2048x1024 : (⟨S_, .i32⟩ : BufTy).Contents (Elt F) → (⟨S2048x1024, .i32⟩ : BufTy).Contents (Elt F)),
    binary main_v16 main_v27 main_v28 (addi : (⟨S2048x1024, .i32⟩ : BufTy).Contents (Elt F) → (⟨S2048x1024, .i32⟩ : BufTy).Contents (Elt F) → (⟨S2048x1024, .i32⟩ : BufTy).Contents (Elt F)),
    ternary main_v26 main_v28 main_v16 main_v29 (select : (⟨S2048x1024, .i1⟩ : BufTy).Contents (Elt F) → (⟨S2048x1024, .i32⟩ : BufTy).Contents (Elt F) → (⟨S2048x1024, .i32⟩ : BufTy).Contents (Elt F) → (⟨S2048x1024, .i32⟩ : BufTy).Contents (Elt F)),
    unary main_v24 main_v30 (broadcastInDim S2048x1024 ![0, 1] bcast_S2048x1_S2048x1024_0_1 : (⟨S2048x1, .i32⟩ : BufTy).Contents (Elt F) → (⟨S2048x1024, .i32⟩ : BufTy).Contents (Elt F)),
    unary main_v30 main_v31 (broadcastInDim S2048x1024x1 ![0, 1] bcast_S2048x1024_S2048x1024x1_0_1 : (⟨S2048x1024, .i32⟩ : BufTy).Contents (Elt F) → (⟨S2048x1024x1, .i32⟩ : BufTy).Contents (Elt F)),
    unary main_v29 main_v32 (broadcastInDim S2048x1024x1 ![0, 1] bcast_S2048x1024_S2048x1024x1_0_1 : (⟨S2048x1024, .i32⟩ : BufTy).Contents (Elt F) → (⟨S2048x1024x1, .i32⟩ : BufTy).Contents (Elt F)) ]

/-- The end of the line — the columns laid side by side, the ones, the scatter, the product: 5 operations. -/
abbrev restBG : List (HloOp τ sig (Elt F)) :=
  [ binary main_v31 main_v32 main_v33 ((fun a b => concatenate S2048x1024x2 2 [⟨S2048x1024x1, a⟩, ⟨S2048x1024x1, b⟩] concatenates_S2048x1024x1_S2048x1024x1_S2048x1024x2_d2) : (⟨S2048x1024x1, .i32⟩ : BufTy).Contents (Elt F) → (⟨S2048x1024x1, .i32⟩ : BufTy).Contents (Elt F) → (⟨S2048x1024x2, .i32⟩ : BufTy).Contents (Elt F)),
    nullary main_cst_7 (constant S_ .f32 0x3F800000#32),
    unary main_cst_7 main_v34 (broadcastInDim S2048x1024 ![] bcast_S_S2048x1024 : (⟨S_, .f32⟩ : BufTy).Contents (Elt F) → (⟨S2048x1024, .f32⟩ : BufTy).Contents (Elt F)),
    ternary main_v17 main_v33 main_v34 main_v35 ((fun x i u => Host.scatterAdd scatter_S2048x16384_S2048x1024x2_S2048x1024_n_01_01_2 x i u) : (⟨S2048x16384, .f32⟩ : BufTy).Contents (Elt F) → (⟨S2048x1024x2, .i32⟩ : BufTy).Contents (Elt F) → (⟨S2048x1024, .f32⟩ : BufTy).Contents (Elt F) → (⟨S2048x16384, .f32⟩ : BufTy).Contents (Elt F)),
    binary main_v35 main_arg2 main_v36 ((fun l r => Host.dotGeneral dot_S2048x16384_S16384x2048_S2048x2048_1_0_0_1_n_n none l r) : (⟨S2048x16384, .f32⟩ : BufTy).Contents (Elt F) → (⟨S16384x2048, .f32⟩ : BufTy).Contents (Elt F) → (⟨S2048x2048, .f32⟩ : BufTy).Contents (Elt F)) ]

theorem ops_eqG : (ops (F := F)) = takeOpsG ++ (restAG ++ restBG) := rfl

end Lists

/-- The gather and the rest of the line, at the extended reals. -/
def takeOps : List (HloOp τ sig (Elt Ideal)) := takeOpsG
abbrev restA : List (HloOp τ sig (Elt Ideal)) := restAG
abbrev restB : List (HloOp τ sig (Elt Ideal)) := restBG
abbrev restOps : List (HloOp τ sig (Elt Ideal)) := restA ++ restB

theorem ops_eq : (ops (F := Ideal)) = takeOps ++ restOps := ops_eqG

variable (V : Valuation τ sig (Elt Ideal))

/-- The gathered activations. -/
def takeR : FVec Ideal S2048x1024x4 .f32 := after takeOps V (Proc.devRef .tc main_v0)

/-- Every detector's channel word, packed from the gathered activations. -/
def chanR : IVec S2048x1024 32 :=
  Cert.Pack.pack (takeR V) bcast_S_S2048x1024x4 natLt_1_32 bcast_S_S4 bcast_S4_S1x1x4_2 bcast_S1x1x4_S2048x1024x4_0_1_2
    reducesTo_S2048x1024x4_S2048x1024_d2 h_S_

/-! ## The stages after the channel word, over any channel array -/

/-- The sample index as a column, wrapped by the extent if negative. -/
def batchCol : IVec S2048x1 32 :=
  select (cmpi .slt (broadcastInDim S2048x1 ![0] bcast_S2048_S2048x1_0 (iotaInDim S2048 32 0))
      (broadcastInDim S2048x1 ![] bcast_S_S2048x1 (constantI S_ 32 0#32)))
    (addi (broadcastInDim S2048x1 ![0] bcast_S2048_S2048x1_0 (iotaInDim S2048 32 0))
      (broadcastInDim S2048x1 ![] bcast_S_S2048x1 (constantI S_ 32 2048#32)))
    (broadcastInDim S2048x1 ![0] bcast_S2048_S2048x1_0 (iotaInDim S2048 32 0))

/-- The neuron word 16·i + channel, before the wrap. -/
def neuronRaw (chan : IVec S2048x1024 32) : IVec S2048x1024 32 :=
  addi (broadcastInDim S2048x1024 ![0, 1] bcast_S1x1024_S2048x1024_0_1
      (muli (broadcastInDim S1x1024 ![1] bcast_S1024_S1x1024_1 (iotaInDim S1024 32 0))
        (broadcastInDim S1x1024 ![] bcast_S_S1x1024 (constantI S_ 32 16#32)))) chan

/-- The neuron word, wrapped by the extent if negative. -/
def neuronCol (chan : IVec S2048x1024 32) : IVec S2048x1024 32 :=
  select (cmpi .slt (neuronRaw chan) (broadcastInDim S2048x1024 ![] bcast_S_S2048x1024 (constantI S_ 32 0#32)))
    (addi (neuronRaw chan) (broadcastInDim S2048x1024 ![] bcast_S_S2048x1024 (constantI S_ 32 16384#32)))
    (neuronRaw chan)

/-- Two stacks of columns laid side by side. -/
def idxOf (c0 c1 : IVec S2048x1024x1 32) : IVec S2048x1024x2 32 :=
  concatenate ⟨3, ![2048, 1024, 2]⟩ (2 : Fin 3) [⟨⟨3, ![2048, 1024, 1]⟩, c0⟩, ⟨⟨3, ![2048, 1024, 1]⟩, c1⟩]
    concatenates_S2048x1024x1_S2048x1024x1_S2048x1024x2_d2

/-- The sample word and the neuron word of every (sample, detector) pair, each as a stack of columns. -/
def col0 : IVec S2048x1024x1 32 :=
  broadcastInDim S2048x1024x1 ![0, 1] bcast_S2048x1024_S2048x1024x1_0_1
    (broadcastInDim S2048x1024 ![0, 1] bcast_S2048x1_S2048x1024_0_1 batchCol)
def col1 (chan : IVec S2048x1024 32) : IVec S2048x1024x1 32 :=
  broadcastInDim S2048x1024x1 ![0, 1] bcast_S2048x1024_S2048x1024x1_0_1 (neuronCol chan)

/-- The two index words of every (sample, detector) pair, side by side. -/
def idxR (chan : IVec S2048x1024 32) : IVec S2048x1024x2 32 := idxOf col0 (col1 chan)

/-- The zero matrix the ones are added into, and the ones. -/
def zerosR : FVec Ideal S2048x16384 .f32 :=
  broadcastInDim S2048x16384 ![] bcast_S_S2048x16384 (constant (F := Ideal) S_ .f32 0x00000000#32)
def onesR : FVec Ideal S2048x1024 .f32 :=
  broadcastInDim S2048x1024 ![] bcast_S_S2048x1024 (constant (F := Ideal) S_ .f32 0x3F800000#32)

/-- The matrix of counts: a one added at (sample, neuron word) for every (sample, detector) pair. -/
def countsR (chan : IVec S2048x1024 32) : FVec Ideal S2048x16384 .f32 :=
  Host.scatterAdd (Cert.LibPairScatter.pairScatter 2048 16384 2048 1024 scatter_S2048x16384_S2048x1024x2_S2048x1024_n_01_01_2_wf)
    zerosR (idxR chan) onesR

/-! ## The line read back, in two parts -/

/-- The last five operations, from any contents: the product of the counts at the side-by-side columns with the weights. -/
theorem restB_v36 (W : Valuation τ sig (Elt Ideal)) :
    after restB W (Proc.devRef .tc main_v36)
      = Host.dotGeneral (φ₁ := .f32) (φ₂ := .f32) (Cert.Lib.plainDot 2048 16384 2048 dot_S2048x16384_S16384x2048_S2048x2048_1_0_0_1_n_n_wf) none
          (Host.scatterAdd (Cert.LibPairScatter.pairScatter 2048 16384 2048 1024 scatter_S2048x16384_S2048x1024x2_S2048x1024_n_01_01_2_wf)
            (W (Proc.devRef .tc main_v17) : FVec Ideal S2048x16384 .f32)
            (idxOf (W (Proc.devRef .tc main_v31)) (W (Proc.devRef .tc main_v32))) onesR)
          (W (Proc.devRef .tc main_arg2) : FVec Ideal S16384x2048 .f32) := by
  after_results_simp
  rfl

/-- The 41 operations before them leave the zero matrix, the two columns, and the weights untouched. -/
theorem restA_v17 (W : Valuation τ sig (Elt Ideal)) : after restA W (Proc.devRef .tc main_v17) = zerosR := by
  after_results_simp
  rfl
theorem restA_v31 (W : Valuation τ sig (Elt Ideal)) : after restA W (Proc.devRef .tc main_v31) = col0 := by
  after_results_simp
  rfl
theorem restA_v32 (W : Valuation τ sig (Elt Ideal)) :
    after restA W (Proc.devRef .tc main_v32) = col1 (Cert.Pack.pack (W (Proc.devRef .tc main_v0) : FVec Ideal S2048x1024x4 .f32) bcast_S_S2048x1024x4 natLt_1_32 bcast_S_S4 bcast_S4_S1x1x4_2
      bcast_S1x1x4_S2048x1024x4_0_1_2 reducesTo_S2048x1024x4_S2048x1024_d2 h_S_) := by
  after_results_simp
  rfl
theorem restA_arg2 (W : Valuation τ sig (Elt Ideal)) :
    after restA W (Proc.devRef .tc main_arg2) = W (Proc.devRef .tc main_arg2) := by
  after_results_simp

/-- The line's last 46 operations leave, at the result buffer, the counts of the channel word packed from what the
    gather left, multiplied with the weights. -/
theorem rest_v36 (W : Valuation τ sig (Elt Ideal)) :
    after restOps W (Proc.devRef .tc main_v36)
      = Host.dotGeneral (φ₁ := .f32) (φ₂ := .f32) (Cert.Lib.plainDot 2048 16384 2048 dot_S2048x16384_S16384x2048_S2048x2048_1_0_0_1_n_n_wf) none
          (countsR (Cert.Pack.pack (W (Proc.devRef .tc main_v0) : FVec Ideal S2048x1024x4 .f32) bcast_S_S2048x1024x4 natLt_1_32 bcast_S_S4 bcast_S4_S1x1x4_2
      bcast_S1x1x4_S2048x1024x4_0_1_2 reducesTo_S2048x1024x4_S2048x1024_d2 h_S_))
          (W (Proc.devRef .tc main_arg2) : FVec Ideal S16384x2048 .f32) := by
  rw [after_append, restB_v36, restA_v17, restA_v31, restA_v32, restA_arg2]
  rfl

/-! ## The index words, read at a pair -/

/-- Word 0 of the pair (r, i) is the sample index r, wrapped if negative. -/
theorem idxR_zero (chan : IVec S2048x1024 32) (r : Fin 2048) (i : Fin 1024) :
    idxR chan (ix3 r i (0 : Fin 2)) = Cert.Spec.batchWord r.val := by
  unfold idxR idxOf
  rw [Cert.LibHostStack.concat2_cols _ _ _ r i (0 : Fin 2)]
  show col0 (ix3 r i (0 : Fin 1)) = _
  unfold col0
  rw [Cert.LibHostStack.bid_ab_ab1_apply, Cert.Lib.broadcastInDim_a1_ab_apply]
  unfold batchCol
  rw [select_apply]
  show Scalar.select
      (IntOp.cmpi .slt (broadcastInDim S2048x1 ![0] bcast_S2048_S2048x1_0 (iotaInDim S2048 32 0) (ix2 r (0 : Fin 1)))
        (broadcastInDim S2048x1 ![] bcast_S_S2048x1 (constantI S_ 32 0#32) (ix2 r (0 : Fin 1))))
      (IntOp.addi (broadcastInDim S2048x1 ![0] bcast_S2048_S2048x1_0 (iotaInDim S2048 32 0) (ix2 r (0 : Fin 1)))
        (broadcastInDim S2048x1 ![] bcast_S_S2048x1 (constantI S_ 32 2048#32) (ix2 r (0 : Fin 1))))
      (broadcastInDim S2048x1 ![0] bcast_S2048_S2048x1_0 (iotaInDim S2048 32 0) (ix2 r (0 : Fin 1))) = _
  rw [Cert.Lib.broadcastInDim_a_a1_apply, broadcastInDim_scalar_apply, broadcastInDim_scalar_apply]
  rfl

/-- The neuron word before the wrap, at (r, i): 16·i plus the channel word. -/
theorem neuronRaw_apply (chan : IVec S2048x1024 32) (r : Fin 2048) (i : Fin 1024) :
    neuronRaw chan (ix2 r i) = IntOp.addi (IntOp.muli (BitVec.ofNat 32 i.val) 16#32) (chan (ix2 r i)) := by
  unfold neuronRaw
  show IntOp.addi (broadcastInDim S2048x1024 ![0, 1] bcast_S1x1024_S2048x1024_0_1
      (muli (broadcastInDim S1x1024 ![1] bcast_S1024_S1x1024_1 (iotaInDim S1024 32 0))
        (broadcastInDim S1x1024 ![] bcast_S_S1x1024 (constantI S_ 32 16#32))) (ix2 r i)) (chan (ix2 r i)) = _
  rw [Cert.Lib.broadcastInDim_1b_ab_apply]
  show IntOp.addi (IntOp.muli (broadcastInDim S1x1024 ![1] bcast_S1024_S1x1024_1 (iotaInDim S1024 32 0) (ix2 (0 : Fin 1) i))
      (broadcastInDim S1x1024 ![] bcast_S_S1x1024 (constantI S_ 32 16#32) (ix2 (0 : Fin 1) i))) (chan (ix2 r i)) = _
  rw [Cert.Lib.broadcastInDim_b_1b_apply, broadcastInDim_scalar_apply]
  rfl

/-- Word 1 of the pair (r, i) is the neuron word 16·i + channel (r, i), wrapped if negative. -/
theorem idxR_one (chan : IVec S2048x1024 32) (r : Fin 2048) (i : Fin 1024) :
    idxR chan (ix3 r i (1 : Fin 2)) = Cert.Spec.neuronWord i.val (chan (ix2 r i)) := by
  unfold idxR idxOf
  rw [Cert.LibHostStack.concat2_cols _ _ _ r i (1 : Fin 2)]
  show col1 chan (ix3 r i (0 : Fin 1)) = _
  unfold col1
  rw [Cert.LibHostStack.bid_ab_ab1_apply]
  unfold neuronCol
  rw [select_apply]
  show Scalar.select
      (IntOp.cmpi .slt (neuronRaw chan (ix2 r i)) (broadcastInDim S2048x1024 ![] bcast_S_S2048x1024 (constantI S_ 32 0#32) (ix2 r i)))
      (IntOp.addi (neuronRaw chan (ix2 r i)) (broadcastInDim S2048x1024 ![] bcast_S_S2048x1024 (constantI S_ 32 16384#32) (ix2 r i)))
      (neuronRaw chan (ix2 r i)) = _
  rw [neuronRaw_apply, broadcastInDim_scalar_apply, broadcastInDim_scalar_apply]
  rfl

/-! ## The count at an entry -/

theorem zerosR_apply (j : S2048x16384.Idx) : @Eq EReal (zerosR j) 0 := by
  unfold zerosR
  rw [broadcastInDim_scalar_apply, constant_apply]
  exact Ideal.ofBits_zero_f32

theorem onesR_apply (j : S2048x1024.Idx) : @Eq EReal (onesR j) 1 := by
  unfold onesR
  rw [broadcastInDim_scalar_apply, constant_apply]
  exact Ideal.ofBits_one_f32

/-- With every channel below 16, the count at (p, n) is the indicator that detector n / 16 of sample p has channel
    n mod 16: zero plus one for every pair whose index words are (p, n), and at most one pair is. -/
theorem countsR_apply (chan : IVec S2048x1024 32) (hc : ∀ j, (chan j).toNat < 16) (p : Fin 2048) (n : Fin 16384) :
    @Eq EReal (countsR chan (ix2 p n)) (Cert.Spec.hot chan p n) := by
  have key : ∀ j : (⟨2, ![2048, 1024]⟩ : Shape).Idx,
      ((idxR chan (ix3 (j 0) (j 1) (0 : Fin 2))).toInt = (p.val : Int) ∧ (idxR chan (ix3 (j 0) (j 1) (1 : Fin 2))).toInt = (n.val : Int))
        ↔ ((Cert.Spec.batchWord (j 0).val).toInt = (p.val : Int) ∧ (Cert.Spec.neuronWord (j 1).val (chan j)).toInt = (n.val : Int)) := by
    intro j
    have e0 := idxR_zero chan (j 0) (j 1)
    have e1 : idxR chan (ix3 (j 0) (j 1) (1 : Fin 2)) = Cert.Spec.neuronWord (j 1).val (chan j) :=
      (idxR_one chan (j 0) (j 1)).trans (congrArg (fun k => Cert.Spec.neuronWord (j 1).val (chan k)) (eq_ix2 j).symm)
    rw [e0, e1]
  unfold countsR
  rw [Cert.LibPairScatter.scatterAdd_pair_apply, zerosR_apply,
    Finset.sum_congr (Finset.filter_congr fun j _ => key j) fun j _ => onesR_apply j]
  exact Cert.Spec.count_eq_hot chan hc p n

/-! ## The result at an entry -/

/-- No operation of the gather writes the weights. -/
theorem take_arg2 : after takeOps V (Proc.devRef .tc main_arg2) = V (Proc.devRef .tc main_arg2) :=
  after_of_forall_not_mem (b := Proc.devRef .tc main_arg2) _ _ (List.forall_iff_forall_mem.mp (by
    simp only [takeOps, takeOpsG, List.Forall, nullary_writes, unary_writes, binary_writes, ternary_writes, Finset.mem_singleton]
    repeat' apply And.intro
    all_goals exact devRef_ne_of_ne (by decide)))

/-- The whole line leaves, at the result buffer, the counts of the packed channel word multiplied with the weights. -/
theorem v36_eq : after (ops (F := Ideal)) V (Proc.devRef .tc main_v36)
    = Host.dotGeneral (φ₁ := .f32) (φ₂ := .f32) (Cert.Lib.plainDot 2048 16384 2048 dot_S2048x16384_S16384x2048_S2048x2048_1_0_0_1_n_n_wf) none
        (countsR (chanR V)) (V (Proc.devRef .tc main_arg2) : FVec Ideal S16384x2048 .f32) := by
  rw [ops_eq, after_append, rest_v36, take_arg2]
  rfl

/-- THE RESULT AT (p, q): the sum over the neurons n of the indicator that sample p fires n times the weight (n, q). -/
theorem out_apply (p q : Fin 2048) :
    @Eq EReal ((after (ops (F := Ideal)) V (Proc.devRef .tc main_v36) : S2048x2048.Idx → EReal) (ix2 p q))
      (∑ n : Fin 16384, Cert.Spec.hot (chanR V) p n * (V (Proc.devRef .tc main_arg2) : S16384x2048.Idx → EReal) (ix2 n q)) := by
  rw [v36_eq]
  show FloatOps.dotGeneral (φ₁ := .f32) (φ₂ := .f32) (Cert.Lib.plainDot 2048 16384 2048 dot_S2048x16384_S16384x2048_S2048x2048_1_0_0_1_n_n_wf) none .single
    (countsR (chanR V)) (V (Proc.devRef .tc main_arg2) : FVec Ideal S16384x2048 .f32) (ix2 p q) = _
  rw [Cert.Lib.dotGeneral_plain_apply]
  refine Finset.sum_congr rfl fun n _ => ?_
  rw [countsR_apply (chanR V) (fun j => Cert.Pack.pack_lt _ _ _ _ _ _ _ _ j) p n]

end Cert.ReferenceIdeal.RefValue

end
-- ==== Proof.Bridge.lean ====
/-
  The gathered activations are one function of the arguments in both programs.

  Both programs begin with the same gather: the anchor indices, wrapped by the extent when negative, select columns
  of the activations; an index outside the array yields an undefined number. Written out over the arguments the two
  programs' twenty-three operations are the same operations on the same values, so when the arguments agree the
  gathered arrays agree — without ever looking inside the gather.
-/
import proofs.«135660_j81741817577533_1_alg».proof.Proof.Gen.KernelIdeal.Frame
import proofs.«135660_j81741817577533_1_alg».proof.Proof.RefValue
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

/-- From buffers that agree on the activations and on the anchors, the kernel program's gather and the reference's
    leave the same array of gathered activations. -/
theorem take_agree (VK : Valuation Cert.KernelIdeal.τ Cert.KernelIdeal.sig (Elt Ideal))
    (VR : Valuation Cert.ReferenceIdeal.τ Cert.ReferenceIdeal.sig (Elt Ideal))
    (h0 : @Eq ((⟨2, ![2048, 2048]⟩ : Shape).Idx → EReal) (VR (Proc.devRef .tc Cert.ReferenceIdeal.main_arg0)) (VK (Proc.devRef .tc Cert.KernelIdeal.main_arg0)))
    (h1 : @Eq ((⟨2, ![1024, 4]⟩ : Shape).Idx → BitVec 32) (VR (Proc.devRef .tc Cert.ReferenceIdeal.main_arg1)) (VK (Proc.devRef .tc Cert.KernelIdeal.main_arg1))) :
    @Eq ((⟨3, ![2048, 1024, 4]⟩ : Shape).Idx → EReal)
      (after Cert.ReferenceIdeal.RefValue.takeOps VR (Proc.devRef .tc Cert.ReferenceIdeal.main_v0))
      (after (Cert.KernelIdeal.Gen.hostOps0 (F := Ideal)) VK (Proc.devRef .tc Cert.KernelIdeal.main_v0)) := by
  simp only [Cert.KernelIdeal.Gen.hostOps0, Cert.ReferenceIdeal.RefValue.takeOps, Cert.ReferenceIdeal.RefValue.takeOpsG]
  after_results_simp
  rw [h0, h1]
  rfl

end Cert.Bridge

end
-- ==== Proof.lean ====
/-
  The lookup layer: a kernel that multiplies the one-hot matrix of fired neurons by the weights, block by block,
  against a reference that counts fired neurons by scattered additions and multiplies the counts by the weights.

  Both programs gather each detector's four anchor activations, threshold them and pack the four bits into a channel
  below 16; detector i of sample p with channel c fires neuron 16·i + c. The kernel's program writes a one-hot row
  per detector and reshapes; the reference adds 1 at (p, 16·i + c) for every detector into a zero matrix. Because the
  channel is below 16 the position determines the detector, so both matrices hold, at (p, n), 1 when detector n / 16
  of sample p has channel n mod 16 and 0 otherwise. The kernel then accumulates the product with the weights over 32
  tiles of the contraction axis, starting each run from zero, and the reference forms the whole product at once: on
  the extended reals, where addition is commutative and associative, both are the sum over all 16384 neurons n of
  that entry times W (n, q). No finiteness of the inputs is needed.
-/
import proofs.«135660_j81741817577533_1_alg».proof.Defs
import proofs.«135660_j81741817577533_1_alg».proof.Proof.Gen.Kernel
import proofs.«135660_j81741817577533_1_alg».proof.Proof.Gen.Kernel.Frame
import proofs.«135660_j81741817577533_1_alg».proof.Proof.Gen.KernelIdeal
import proofs.«135660_j81741817577533_1_alg».proof.Proof.Gen.KernelIdeal.Frame
import proofs.«135660_j81741817577533_1_alg».proof.Proof.Gen.KernelIdeal.Value
import proofs.«135660_j81741817577533_1_alg».proof.Proof.Gen.ReferenceIdeal
import proofs.«135660_j81741817577533_1_alg».proof.Proof.Gen.Pre_finite_inputs
import proofs.«135660_j81741817577533_1_alg».proof.Proof.KernelSum
import proofs.«135660_j81741817577533_1_alg».proof.Proof.KernelHost
import proofs.«135660_j81741817577533_1_alg».proof.Proof.RefRun
import proofs.«135660_j81741817577533_1_alg».proof.Proof.RefValue
import proofs.«135660_j81741817577533_1_alg».proof.Proof.Bridge
import Idealize.ShloMosaic.Adequacy
import Idealize.ShloMosaic.Init

noncomputable section

namespace Cert.Proof

open Idealize.ShloMosaic Idealize.ShloMosaic.ValueIdx Idealize.SL.Sem Idealize.ShloMosaic.StableHlo

/-- The channels agree: the same packing of gathered activations that agree. -/
theorem chan_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefValue.chanR (launchContents m' c) = Cert.KernelHost.chanK m c := by
  have ht : Cert.ReferenceIdeal.RefValue.takeR (launchContents m' c) = Cert.KernelHost.takeK m c :=
    Cert.Bridge.take_agree (fun b => m (c, b)) (launchContents m' c) h0 h1
  unfold Cert.ReferenceIdeal.RefValue.chanR Cert.KernelHost.chanK
  rw [ht]

/-- The two results are one array: at (p, q) both are the sum over the neurons n of the fired-neuron entry (p, n)
    times W (n, q). -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    @Eq ((⟨2, ![2048, 2048]⟩ : Shape).Idx → EReal)
      (after (Cert.ReferenceIdeal.RefRun.ops (F := Ideal)) (launchContents m' c) (Proc.devRef .tc Cert.ReferenceIdeal.main_v36))
      (Cert.KernelIdeal.Value.G2 (F := Ideal) m c) := by
  funext j
  obtain ⟨p, q, rfl⟩ : ∃ (p q : Fin 2048), j = ix2 p q := ⟨j 0, j 1, eq_ix2 j⟩
  refine (Cert.ReferenceIdeal.RefValue.out_apply (launchContents m' c) p q).trans ?_
  refine Eq.trans ?_ (Cert.KernelSum.G2_apply m c p q).symm
  refine Finset.sum_congr rfl fun n _ => ?_
  rw [chan_agree m m' c h0 h1]
  refine congrArg₂ (fun a b : EReal => a * b) (Cert.KernelHost.lhs_apply m c p n).symm ?_
  have e2 : @Eq ((⟨2, ![16384, 2048]⟩ : Shape).Idx → EReal) (launchContents m' c (Proc.devRef .tc Cert.ReferenceIdeal.main_arg2))
      (Cert.KernelIdeal.Gen.V m c Cert.KernelIdeal.main_arg2) := h2.trans (Cert.KernelIdeal.Gen.V_main_arg2 m c).symm
  exact congrFun e2 (ix2 n q)

theorem frame_k : Cert.frame_Kernel := fun m ρ _ => Cert.Kernel.Gen.frame m ρ
theorem frame_ki : Cert.frame_KernelIdeal := fun m ρ _ => Cert.KernelIdeal.Gen.frame m ρ

/-- The reference's run leaves its arguments as they were: no operation writes them. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _)⟩)
    (Cert.ReferenceIdeal.RefRun.run_main (F := Ideal) m ρ)

/-- Both idealized programs run, and end with the same result array. -/
theorem algebraic : Cert.algebraic_KernelIdeal_ReferenceIdeal := by
  intro m ρ m' ρ' _ hagree
  refine ⟨fun c => Cert.KernelIdeal.Value.G2 (F := Ideal) m c, Cert.KernelIdeal.Value.run (F := Ideal) m ρ, ?_⟩
  refine (θ_run Cert.ReferenceIdeal.defs _ _).mono (fun r h c =>
    ⟨(h c Cert.ReferenceIdeal.main_v36).trans (result_eq m m' c (hagree c).1 (hagree c).2.1 (hagree c).2.2),
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _)⟩)
    (Cert.ReferenceIdeal.RefRun.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
